-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x12 : Shape := ⟨2, ![100000, 12]⟩
abbrev S2x3200000 : Shape := ⟨2, ![2, 3200000]⟩
abbrev S12x64 : Shape := ⟨2, ![12, 64]⟩
abbrev S64 : Shape := ⟨1, ![64]⟩
abbrev S192x64 : Shape := ⟨2, ![192, 64]⟩
abbrev S192 : Shape := ⟨1, ![192]⟩
abbrev S1x64 : Shape := ⟨2, ![1, 64]⟩
abbrev S1 : Shape := ⟨1, ![1]⟩
abbrev S_ : Shape := ⟨0, ![]⟩

class Facts : Prop where
  bcast_S_S100000x12 : S_.BroadcastsInDim S100000x12 (![] : Fin 0 → Fin S100000x12.rank)
  reducesTo_S100000x12_S_d0_1 : S100000x12.ReducesTo [0, 1] S_
  h_S_ : 0 < S_.numel
  bcast_S_S12x64 : S_.BroadcastsInDim S12x64 (![] : Fin 0 → Fin S12x64.rank)
  reducesTo_S12x64_S_d0_1 : S12x64.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x64 .f32) (main_arg9 : FVec F S1 .f32) (main_v33 : IVec S_ 1) : IVec S_ 1 :=
  let main_v34 : FVec F S1x64 .f32 := Host.absf main_arg8
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S192x64 .f32) (main_arg6 : FVec F S192 .f32) (main_arg7 : FVec F S192 .f32) (main_arg8 : FVec F S1x64 .f32) (main_arg9 : FVec F S1 .f32) (main_v13 : IVec S_ 1) (main_v16 : IVec S192x64 1) : IVec S_ 1 :=
  let main_c_5 : IVec S_ 1 := constantI S_ 1 1#1
  let main_v17 : IVec S_ 1 := (fun x v => Host.reduce IntOp.andi x v reducesTo_S192x64_S_d0_1 h_S_) main_v16 main_c_5
  let main_v18 : IVec S_ 1 := andi main_v13 main_v17
  let main_v19 : FVec F S192x64 .f32 := Host.absf main_arg5
  let main_cst_6 : FVec F S_ .f32 := constant S_ .f32 0x7F800000#32
  let main_v20 : FVec F S192x64 .f32 := broadcastInDim S192x64 ![] bcast_S_S192x64 main_cst_6
  let main_v21 : IVec S192x64 1 := cmpf .olt main_v19 main_v20
  let main_c_7 : IVec S_ 1 := constantI S_ 1 1#1
  let main_v22 : IVec S_ 1 := (fun x v => Host.reduce IntOp.andi x v reducesTo_S192x64_S_d0_1 h_S_) main_v21 main_c_7
  let main_v23 : IVec S_ 1 := andi main_v18 main_v22
  let main_v24 : FVec F S192 .f32 := Host.absf main_arg6
  let main_cst_8 : FVec F S_ .f32 := constant S_ .f32 0x7F800000#32
  let main_v25 : FVec F S192 .f32 := broadcastInDim S192 ![] bcast_S_S192 main_cst_8
  let main_v26 : IVec S192 1 := cmpf .olt main_v24 main_v25
  let main_c_9 : IVec S_ 1 := constantI S_ 1 1#1
  let main_v27 : IVec S_ 1 := (fun x v => Host.reduce IntOp.andi x v reducesTo_S192_S_d0 h_S_) main_v26 main_c_9
  let main_v28 : IVec S_ 1 := andi main_v23 main_v27
  let main_v29 : FVec F S192 .f32 := Host.absf main_arg7
  let main_cst_10 : FVec F S_ .f32 := constant S_ .f32 0x7F800000#32
  let main_v30 : FVec F S192 .f32 := broadcastInDim S192 ![] bcast_S_S192 main_cst_10
  let main_v31 : IVec S192 1 := cmpf .olt main_v29 main_v30
  let main_c_11 : IVec S_ 1 := constantI S_ 1 1#1
  let main_v32 : IVec S_ 1 := (fun x v => Host.reduce IntOp.andi x v reducesTo_S192_S_d0 h_S_) main_v31 main_c_11
  let main_v33 : IVec S_ 1 := andi main_v28 main_v32
  fn_part2 (F := F) main_arg8 main_arg9 main_v33

def fn {F : FTy → Type} [FloatOps F] (main_arg0 : FVec F S100000x12 .f32) (main_arg1 : IVec S2x3200000 32) (main_arg2 : FVec F S12x64 .f32) (main_arg3 : FVec F S64 .f32) (main_arg4 : FVec F S192x64 .f32) (main_arg5 : FVec F S192x64 .f32) (main_arg6 : FVec F S192 .f32) (main_arg7 : FVec F S192 .f32) (main_arg8 : FVec F S1x64 .f32) (main_arg9 : FVec F S1 .f32) : IVec S_ 1 :=
  let main_v0 : FVec F S100000x12 .f32 := Host.absf main_arg0
  let main_cst : FVec F S_ .f32 := constant S_ .f32 0x7F800000#32
  let main_v1 : FVec F S100000x12 .f32 := broadcastInDim S100000x12 ![] bcast_S_S100000x12 main_cst
  let main_v2 : IVec S100000x12 1 := cmpf .olt main_v0 main_v1
  let main_c : IVec S_ 1 := constantI S_ 1 1#1
  let main_v3 : IVec S_ 1 := (fun x v => Host.reduce IntOp.andi x v reducesTo_S100000x12_S_d0_1 h_S_) main_v2 main_c
  let main_v4 : FVec F S12x64 .f32 := Host.absf main_arg2
  let main_cst_0 : FVec F S_ .f32 := constant S_ .f32 0x7F800000#32
  let main_v5 : FVec F S12x64 .f32 := broadcastInDim S12x64 ![] bcast_S_S12x64 main_cst_0
  let main_v6 : IVec S12x64 1 := cmpf .olt main_v4 main_v5
  let main_c_1 : IVec S_ 1 := constantI S_ 1 1#1
  let main_v7 : IVec S_ 1 := (fun x v => Host.reduce IntOp.andi x v reducesTo_S12x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S192x64 .f32 := Host.absf main_arg4
  let main_cst_4 : FVec F S_ .f32 := constant S_ .f32 0x7F800000#32
  let main_v15 : FVec F S192x64 .f32 := broadcastInDim S192x64 ![] bcast_S_S192x64 main_cst_4
  let main_v16 : IVec S192x64 1 := cmpf .olt main_v14 main_v15
  fn_part1 (F := F) main_arg5 main_arg6 main_arg7 main_arg8 main_arg9 main_v13 main_v16
-- ==== Kernel.lean ====
abbrev S100000x12 : Shape := ⟨2, ![100000, 12]⟩
abbrev S2x3200000 : Shape := ⟨2, ![2, 3200000]⟩
abbrev S12x64 : Shape := ⟨2, ![12, 64]⟩
abbrev S64 : Shape := ⟨1, ![64]⟩
abbrev S192x64 : Shape := ⟨2, ![192, 64]⟩
abbrev S192 : Shape := ⟨1, ![192]⟩
abbrev S1x64 : Shape := ⟨2, ![1, 64]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S5000x12 : Shape := ⟨2, ![5000, 12]⟩
abbrev S5000x64 : Shape := ⟨2, ![5000, 64]⟩
abbrev S3300000x64 : Shape := ⟨2, ![3300000, 64]⟩
abbrev S64x192 : Shape := ⟨2, ![64, 192]⟩
abbrev S64x1 : Shape := ⟨2, ![64, 1]⟩
abbrev S1x192 : Shape := ⟨2, ![1, 192]⟩
abbrev S1x1 : Shape := ⟨2, ![1, 1]⟩
abbrev S100000x1 : Shape := ⟨2, ![100000, 1]⟩
abbrev S4000x64 : Shape := ⟨2, ![4000, 64]⟩
abbrev S4000x1 : Shape := ⟨2, ![4000, 1]⟩
abbrev S4000x192 : Shape := ⟨2, ![4000, 192]⟩

abbrev nBuf : Space → Nat
  | .hbm => 75
  | .vmem => 15
  | .smem => 0
  | _ => 0

abbrev bufTy : (tb : Table) → Fin (tcTables nBuf tb) → BufTy
  | .hbm, ⟨0, _⟩ => ⟨S100000x12, .f32⟩
  | .hbm, ⟨1, _⟩ => ⟨S2x3200000, .i32⟩
  | .hbm, ⟨2, _⟩ => ⟨S12x64, .f32⟩
  | .hbm, ⟨3, _⟩ => ⟨S64, .f32⟩
  | .hbm, ⟨4, _⟩ => ⟨S192x64, .f32⟩
  | .hbm, ⟨5, _⟩ => ⟨S192x64, .f32⟩
  | .hbm, ⟨6, _⟩ => ⟨S192, .f32⟩
  | .hbm, ⟨7, _⟩ => ⟨S192, .f32⟩
  | .hbm, ⟨8, _⟩ => ⟨S1x64, .f32⟩
  | .hbm, ⟨9, _⟩ => ⟨S1, .f32⟩
  | .hbm, ⟨10, _⟩ => ⟨S100000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S1x3200000, .i32⟩
  | .hbm, ⟨15, _⟩ => ⟨S3200000, .i32⟩
  | .hbm, ⟨16, _⟩ => ⟨S3300000, .i32⟩
  | .hbm, ⟨17, _⟩ => ⟨S_, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S100000x64, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x64, .f32⟩
  | .hbm, ⟨60, _⟩ => ⟨S3300000x1, .f32⟩
  | .hbm, ⟨61, _⟩ => ⟨S3300000x64, .f32⟩
  | .hbm, ⟨62, _⟩ => ⟨S3300000x64, .f32⟩
  | .hbm, ⟨63, _⟩ => ⟨S_, .f32⟩
  | .hbm, ⟨64, _⟩ => ⟨S100000x64, .f32⟩
  | .hbm, ⟨65, _⟩ => ⟨S3300000x1, .i32⟩
  | .hbm, ⟨66, _⟩ => ⟨S100000x64, .f32⟩
  | .hbm, ⟨67, _⟩ => ⟨S64x192, .f32⟩
  | .hbm, ⟨68, _⟩ => ⟨S64x1, .f32⟩
  | .hbm, ⟨69, _⟩ => ⟨S1x64, .f32⟩
  | .hbm, ⟨70, _⟩ => ⟨S1x192, .f32⟩
  | .hbm, ⟨71, _⟩ => ⟨S1x192, .f32⟩
  | .hbm, ⟨72, _⟩ => ⟨S1x1, .f32⟩
  | .hbm, ⟨73, _⟩ => ⟨S100000x1, .f32⟩
  | .hbm, ⟨74, _⟩ => ⟨S100000, .f32⟩
  | .local _ .vmem, ⟨0, _⟩ => ⟨S5000x12, .f32⟩
  | .local _ .vmem, ⟨1, _⟩ => ⟨S5000x12, .f32⟩
  | .local _ .vmem, ⟨2, _⟩ => ⟨S12x64, .f32⟩
  | .local _ .vmem, ⟨3, _⟩ => ⟨S5000x64, .f32⟩
  | .local _ .vmem, ⟨4, _⟩ => ⟨S5000x64, .f32⟩
  | .local _ .vmem, ⟨5, _⟩ => ⟨S4000x64, .f32⟩
  | .local _ .vmem, ⟨6, _⟩ => ⟨S4000x64, .f32⟩
  | .local _ .vmem, ⟨7, _⟩ => ⟨S1x64, .f32⟩
  | .local _ .vmem, ⟨8, _⟩ => ⟨S64x192, .f32⟩
  | .local _ .vmem, ⟨9, _⟩ => ⟨S1x192, .f32⟩
  | .local _ .vmem, ⟨10, _⟩ => ⟨S1x192, .f32⟩
  | .local _ .vmem, ⟨11, _⟩ => ⟨S64x1, .f32⟩
  | .local _ .vmem, ⟨12, _⟩ => ⟨S1x1, .f32⟩
  | .local _ .vmem, ⟨13, _⟩ => ⟨S4000x1, .f32⟩
  | .local _ .vmem, ⟨14, _⟩ => ⟨S4000x1, .f32⟩
  | _, _ => ⟨S100000x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x12_S5000x12_0_0 : ∀ a, (![0, 0] : Fin 2 → Nat) a + S5000x12.size a ≤ S5000x12.size a
  h_S5000x12 : 0 < S5000x12.numel
  bitsLt_bf16_f32 : FTy.bits .bf16 < FTy.bits .f32
  inb_S12x64_S12x64_0_0 : ∀ a, (![0, 0] : Fin 2 → Nat) a + S12x64.size a ≤ S12x64.size a
  h_S12x64 : 0 < S12x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  transposes_S192x64_S64x192_1_0 : S192x64.Transposes [1, 0] S64x192
  transposes_S1x64_S64x1_1_0 : S1x64.Transposes [1, 0] S64x1
  shapeCasts_S64_S1x64 : S64.ShapeCasts S1x64
  shapeCasts_S192_S1x192 : S192.ShapeCasts S1x192
  shapeCasts_S1_S1x1 : S1.ShapeCasts S1x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S4000x192 : S1x192.Broadcasts S4000x192
  slices_S4000x192_o0_0_S4000x64 : S4000x192.Slices ![0, 0] S4000x64
  slices_S4000x192_o0_64_S4000x64 : S4000x192.Slices ![0, 64] S4000x64
  slices_S4000x192_o0_128_S4000x64 : S4000x192.Slices ![0, 128] S4000x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  shapeCasts_S100000x1_S100000 : S100000x1.ShapeCasts S100000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x12_S12x64_S5000x64_1_0_0_1_n_n_wf : DotDims.WF S5000x12 S12x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S4000x64_S64x192_S4000x192_1_0_0_1_n_n_wf : DotDims.WF S4000x64 S64x192 S4000x192 [1] [0] [0] [1] [] []
  dot_S4000x64_S64x1_S4000x1_1_0_0_1_n_n_wf : DotDims.WF S4000x64 S64x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x12.size a ≤ S100000x12.size a
  hwx0_0 : ∀ i : grid0.Coords, EltTy.bits .f32 = 32 ∨ (Rect.block (s := S100000x12) S5000x12.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x64.size a ≤ S12x64.size a
  hwx0_1 : ∀ i : grid0.Coords, EltTy.bits .f32 = 32 ∨ (Rect.block (s := S12x64) S12x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x192.size a ≤ S64x192.size a
  hwx1_2 : ∀ i : grid1.Coords, EltTy.bits .f32 = 32 ∨ (Rect.block (s := S64x192) S64x192.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x192.size a ≤ S1x192.size a
  hwx1_3 : ∀ i : grid1.Coords, EltTy.bits .f32 = 32 ∨ (Rect.block (s := S1x192) S1x192.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x192.size a ≤ S1x192.size a
  hwx1_4 : ∀ i : grid1.Coords, EltTy.bits .f32 = 32 ∨ (Rect.block (s := S1x192) S1x192.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x1.size a ≤ S64x1.size a
  hwx1_5 : ∀ i : grid1.Coords, EltTy.bits .f32 = 32 ∨ (Rect.block (s := S64x1) S64x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x1.size a ≤ S100000x1.size a
  hwx1_7 : ∀ i : grid1.Coords, EltTy.bits .f32 = 32 ∨ (Rect.block (s := S100000x1) S4000x1.size (cc1_transform_7 i) (hinb1_7 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x12_S12x64_S5000x64_1_0_0_1_n_n : DotDims S5000x12 S12x64 S5000x64 where
  lhsContracting := [1]
  rhsContracting := [0]
  lhsNonContracting := [0]
  rhsNonContracting := [1]
  lhsBatch := []
  rhsBatch := []
  wf := dot_S5000x12_S12x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S4000x64_S64x192_S4000x192_1_0_0_1_n_n : DotDims S4000x64 S64x192 S4000x192 where
  lhsContracting := [1]
  rhsContracting := [0]
  lhsNonContracting := [0]
  rhsNonContracting := [1]
  lhsBatch := []
  rhsBatch := []
  wf := dot_S4000x64_S64x192_S4000x192_1_0_0_1_n_n_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf

abbrev win0_0 : Pipeline.Window sig grid0 :=
  Pipeline.Window.ofSpec (Memref.whole main_arg0) S5000x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S12x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S64x192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x192.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S64x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v50) S4000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x12 : Shape := ⟨2, ![100000, 12]⟩
abbrev S2x3200000 : Shape := ⟨2, ![2, 3200000]⟩
abbrev S12x64 : Shape := ⟨2, ![12, 64]⟩
abbrev S64 : Shape := ⟨1, ![64]⟩
abbrev S192x64 : Shape := ⟨2, ![192, 64]⟩
abbrev S192 : Shape := ⟨1, ![192]⟩
abbrev S1x64 : Shape := ⟨2, ![1, 64]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S64x192 : Shape := ⟨2, ![64, 192]⟩
abbrev S100000x192 : Shape := ⟨2, ![100000, 192]⟩
abbrev S1x192 : Shape := ⟨2, ![1, 192]⟩
abbrev S64x1 : Shape := ⟨2, ![64, 1]⟩
abbrev S100000x1 : Shape := ⟨2, ![100000, 1]⟩
abbrev S1x1 : Shape := ⟨2, ![1, 1]⟩

abbrev nBuf : Space → Nat
  | .hbm => 118
  | .vmem => 0
  | .smem => 0
  | _ => 0

abbrev bufTy : (tb : Table) → Fin (tcTables nBuf tb) → BufTy
  | .hbm, ⟨0, _⟩ => ⟨S100000x12, .f32⟩
  | .hbm, ⟨1, _⟩ => ⟨S2x3200000, .i32⟩
  | .hbm, ⟨2, _⟩ => ⟨S12x64, .f32⟩
  | .hbm, ⟨3, _⟩ => ⟨S64, .f32⟩
  | .hbm, ⟨4, _⟩ => ⟨S192x64, .f32⟩
  | .hbm, ⟨5, _⟩ => ⟨S192x64, .f32⟩
  | .hbm, ⟨6, _⟩ => ⟨S192, .f32⟩
  | .hbm, ⟨7, _⟩ => ⟨S192, .f32⟩
  | .hbm, ⟨8, _⟩ => ⟨S1x64, .f32⟩
  | .hbm, ⟨9, _⟩ => ⟨S1, .f32⟩
  | .hbm, ⟨10, _⟩ => ⟨S100000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S1x3200000, .i32⟩
  | .hbm, ⟨15, _⟩ => ⟨S3200000, .i32⟩
  | .hbm, ⟨16, _⟩ => ⟨S3300000, .i32⟩
  | .hbm, ⟨17, _⟩ => ⟨S_, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S100000x64, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x64, .f32⟩
  | .hbm, ⟨60, _⟩ => ⟨S3300000x1, .f32⟩
  | .hbm, ⟨61, _⟩ => ⟨S3300000x64, .f32⟩
  | .hbm, ⟨62, _⟩ => ⟨S3300000x64, .f32⟩
  | .hbm, ⟨63, _⟩ => ⟨S_, .f32⟩
  | .hbm, ⟨64, _⟩ => ⟨S100000x64, .f32⟩
  | .hbm, ⟨65, _⟩ => ⟨S3300000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S64x192, .f32⟩
  | .hbm, ⟨71, _⟩ => ⟨S100000x192, .f32⟩
  | .hbm, ⟨72, _⟩ => ⟨S1x192, .f32⟩
  | .hbm, ⟨73, _⟩ => ⟨S100000x192, .f32⟩
  | .hbm, ⟨74, _⟩ => ⟨S100000x192, .f32⟩
  | .hbm, ⟨75, _⟩ => ⟨S100000x64, .f32⟩
  | .hbm, ⟨76, _⟩ => ⟨S64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S_, .f32⟩
  | .hbm, ⟨83, _⟩ => ⟨S100000x64, .f32⟩
  | .hbm, ⟨84, _⟩ => ⟨S100000x64, .f32⟩
  | .hbm, ⟨85, _⟩ => ⟨S_, .f32⟩
  | .hbm, ⟨86, _⟩ => ⟨S100000x64, .f32⟩
  | .hbm, ⟨87, _⟩ => ⟨S100000x64, .f32⟩
  | .hbm, ⟨88, _⟩ => ⟨S100000x64, .f32⟩
  | .hbm, ⟨89, _⟩ => ⟨S64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S100000x64, .f32⟩
  | .hbm, ⟨97, _⟩ => ⟨S100000x64, .f32⟩
  | .hbm, ⟨98, _⟩ => ⟨S_, .f32⟩
  | .hbm, ⟨99, _⟩ => ⟨S100000x64, .f32⟩
  | .hbm, ⟨100, _⟩ => ⟨S100000x64, .f32⟩
  | .hbm, ⟨101, _⟩ => ⟨S100000x64, .f32⟩
  | .hbm, ⟨102, _⟩ => ⟨S64, .f32⟩
  | .hbm, ⟨103, _⟩ => ⟨S1x64, .f32⟩
  | .hbm, ⟨104, _⟩ => ⟨S100000x64, .f32⟩
  | .hbm, ⟨105, _⟩ => ⟨S100000x64, .f32⟩
  | .hbm, ⟨106, _⟩ => ⟨S100000x64, .f32⟩
  | .hbm, ⟨107, _⟩ => ⟨S100000x64, .f32⟩
  | .hbm, ⟨108, _⟩ => ⟨S_, .f32⟩
  | .hbm, ⟨109, _⟩ => ⟨S100000x64, .f32⟩
  | .hbm, ⟨110, _⟩ => ⟨S100000x64, .f32⟩
  | .hbm, ⟨111, _⟩ => ⟨S100000x64, .f32⟩
  | .hbm, ⟨112, _⟩ => ⟨S64x1, .f32⟩
  | .hbm, ⟨113, _⟩ => ⟨S100000x1, .f32⟩
  | .hbm, ⟨114, _⟩ => ⟨S1x1, .f32⟩
  | .hbm, ⟨115, _⟩ => ⟨S100000x1, .f32⟩
  | .hbm, ⟨116, _⟩ => ⟨S100000x1, .f32⟩
  | .hbm, ⟨117, _⟩ => ⟨S100000, .f32⟩
  | _, _ => ⟨S100000x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_9 : Ref sig .tc := ⟨.hbm, 82, rfl⟩
abbrev main_v59 : Ref sig .tc := ⟨.hbm, 83, rfl⟩
abbrev main_v60 : Ref sig .tc := ⟨.hbm, 84, rfl⟩
abbrev main_cst_10 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_11 : Ref sig .tc := ⟨.hbm, 95, rfl⟩
abbrev main_v70 : Ref sig .tc := ⟨.hbm, 96, rfl⟩
abbrev main_v71 : Ref sig .tc := ⟨.hbm, 97, rfl⟩
abbrev main_cst_12 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_13 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S192x64_S64x192_1_0 : S192x64.Transposes [1, 0] S64x192
  bcast_S192_S1x192_1 : S192.BroadcastsInDim S1x192 (![1] : Fin 1 → Fin S1x192.rank)
  bcast_S1x192_S100000x192_0_1 : S1x192.BroadcastsInDim S100000x192 (![0, 1] : Fin 2 → Fin S100000x192.rank)
  slices_S100000x192_S100000x64_0_0 : S100000x192.Slices ![0, 0] S100000x64
  slices_S192_S64_0 : S192.Slices ![0] S64
  slices_S100000x192_S100000x64_0_64 : S100000x192.Slices ![0, 64] S100000x64
  slices_S192_S64_64 : S192.Slices ![64] S64
  slices_S100000x192_S100000x64_0_128 : S100000x192.Slices ![0, 128] S100000x64
  slices_S192_S64_128 : S192.Slices ![128] S64
  transposes_S1x64_S64x1_1_0 : S1x64.Transposes [1, 0] S64x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x12_S12x64_S100000x64_1_0_0_1_n_n_wf : DotDims.WF S100000x12 S12x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x192_S100000x192_1_0_0_1_n_n_wf : DotDims.WF S100000x64 S64x192 S100000x192 [1] [0] [0] [1] [] []
  dot_S100000x64_S64x1_S100000x1_1_0_0_1_n_n_wf : DotDims.WF S100000x64 S64x1 S100000x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x12_S12x64_S100000x64_1_0_0_1_n_n : DotDims S100000x12 S12x64 S100000x64 where
  lhsContracting := [1]
  rhsContracting := [0]
  lhsNonContracting := [0]
  rhsNonContracting := [1]
  lhsBatch := []
  rhsBatch := []
  wf := dot_S100000x12_S12x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x192_S100000x192_1_0_0_1_n_n : DotDims S100000x64 S64x192 S100000x192 where
  lhsContracting := [1]
  rhsContracting := [0]
  lhsNonContracting := [0]
  rhsNonContracting := [1]
  lhsBatch := []
  rhsBatch := []
  wf := dot_S100000x64_S64x192_S100000x192_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The kernel program's run with its result NAMED: every weakly fair execution of @main terminates without a fault, the
  argument arrays end as launched, and the result array ends holding what the last segment boundary's contents hold at
  its buffer — the fold of @main's host stretches and of its two regions' write-backs from the launch memory.

  Same launch over @main's seven segments as the frame's; the final state is read at one more buffer, the result's.
-/
import proofs.«138187_j3959959847414_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_named : θ_run defs (onTc (τ := τ) (main (F := F))) ⟨m, fun _ => 0, ρ⟩ (fun r => ∀ c : Dev nD,
      r.2.mem ((c.tc : Thread nD τ).loc main_v51) = W7 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v51 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c)⟩)

end Cert.KernelIdeal.Hand

end
-- ==== Proof.RefRun.lean ====
/-
  The reference program's @main as a list of its 108 host operations, cut into four consecutive stretches, and its run
  read back: every weakly fair execution terminates with each buffer at the fold of the operations' results over the
  launch contents. The fold over the whole list is the fold over the four stretches in turn, and each stretch leaves
  every buffer it does not write as it was.
-/
import proofs.«138187_j3959959847414_2_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1–40: the degree count, its inverse square root, and the per-edge normalization weights. -/
abbrev opsA : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)) ]

/-- Operation 41: the product of the node features with the first weight matrix. -/
abbrev opsDot : List (HloOp τ sig (Elt F)) :=
  [ binary main_arg0 main_arg2 main_v30 ((fun l r => Host.dotGeneral dot_S100000x12_S12x64_S100000x64_1_0_0_1_n_n none l r) : (⟨S100000x12, .f32⟩ : BufTy).Contents (Elt F) → (⟨S12x64, .f32⟩ : BufTy).Contents (Elt F) → (⟨S100000x64, .f32⟩ : BufTy).Contents (Elt F)) ]

/-- Operations 42–57: gathering the transformed features along the edges, weighting them, and summing them into each target node. -/
abbrev opsB : List (HloOp τ sig (Elt F)) :=
  [ nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x64 ![0, 1] bcast_S3300000x1_S3300000x64_0_1 : (⟨S3300000x1, .f32⟩ : BufTy).Contents (Elt F) → (⟨S3300000x64, .f32⟩ : BufTy).Contents (Elt F)),
    binary main_v37 main_v39 main_v40 (mulf : (⟨S3300000x64, .f32⟩ : BufTy).Contents (Elt F) → (⟨S3300000x64, .f32⟩ : BufTy).Contents (Elt F) → (⟨S3300000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)) ]

/-- Operations 58–108: the aggregation bias, the gated recurrent step from the zero state, and the output projection. -/
abbrev opsC : List (HloOp τ sig (Elt F)) :=
  [ unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    unary main_arg4 main_v47 ((transpose S64x192 [1, 0] · transposes_S192x64_S64x192_1_0) : (⟨S192x64, .f32⟩ : BufTy).Contents (Elt F) → (⟨S64x192, .f32⟩ : BufTy).Contents (Elt F)),
    binary main_v46 main_v47 main_v48 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    unary main_arg6 main_v49 (broadcastInDim S1x192 ![1] bcast_S192_S1x192_1 : (⟨S192, .f32⟩ : BufTy).Contents (Elt F) → (⟨S1x192, .f32⟩ : BufTy).Contents (Elt F)),
    unary main_v49 main_v50 (broadcastInDim S100000x192 ![0, 1] bcast_S1x192_S100000x192_0_1 : (⟨S1x192, .f32⟩ : BufTy).Contents (Elt F) → (⟨S100000x192, .f32⟩ : BufTy).Contents (Elt F)),
    binary main_v48 main_v50 main_v51 (addf : (⟨S100000x192, .f32⟩ : BufTy).Contents (Elt F) → (⟨S100000x192, .f32⟩ : BufTy).Contents (Elt F) → (⟨S100000x192, .f32⟩ : BufTy).Contents (Elt F)),
    unary main_v51 main_v52 ((extractStridedSlice S100000x64 ![0, 0] · slices_S100000x192_S100000x64_0_0) : (⟨S100000x192, .f32⟩ : BufTy).Contents (Elt F) → (⟨S100000x64, .f32⟩ : BufTy).Contents (Elt F)),
    unary main_arg7 main_v53 ((extractStridedSlice S64 ![0] · slices_S192_S64_0) : (⟨S192, .f32⟩ : BufTy).Contents (Elt F) → (⟨S64, .f32⟩ : BufTy).Contents (Elt F)),
    unary main_v53 main_v54 (broadcastInDim S1x64 ![1] bcast_S64_S1x64_1 : (⟨S64, .f32⟩ : BufTy).Contents (Elt F) → (⟨S1x64, .f32⟩ : BufTy).Contents (Elt F)),
    unary main_v54 main_v55 (broadcastInDim S100000x64 ![0, 1] bcast_S1x64_S100000x64_0_1 : (⟨S1x64, .f32⟩ : BufTy).Contents (Elt F) → (⟨S100000x64, .f32⟩ : BufTy).Contents (Elt F)),
    binary main_v52 main_v55 main_v56 (addf : (⟨S100000x64, .f32⟩ : BufTy).Contents (Elt F) → (⟨S100000x64, .f32⟩ : BufTy).Contents (Elt F) → (⟨S100000x64, .f32⟩ : BufTy).Contents (Elt F)),
    unary main_v56 main_v57 (Host.negf : (⟨S100000x64, .f32⟩ : BufTy).Contents (Elt F) → (⟨S100000x64, .f32⟩ : BufTy).Contents (Elt F)),
    unary main_v57 main_v58 (Host.exp : (⟨S100000x64, .f32⟩ : BufTy).Contents (Elt F) → (⟨S100000x64, .f32⟩ : BufTy).Contents (Elt F)),
    nullary main_cst_9 (constant S_ .f32 0x3F800000#32),
    unary main_cst_9 main_v59 (broadcastInDim S100000x64 ![] bcast_S_S100000x64 : (⟨S_, .f32⟩ : BufTy).Contents (Elt F) → (⟨S100000x64, .f32⟩ : BufTy).Contents (Elt F)),
    binary main_v59 main_v58 main_v60 (addf : (⟨S100000x64, .f32⟩ : BufTy).Contents (Elt F) → (⟨S100000x64, .f32⟩ : BufTy).Contents (Elt F) → (⟨S100000x64, .f32⟩ : BufTy).Contents (Elt F)),
    nullary main_cst_10 (constant S_ .f32 0x3F800000#32),
    unary main_cst_10 main_v61 (broadcastInDim S100000x64 ![] bcast_S_S100000x64 : (⟨S_, .f32⟩ : BufTy).Contents (Elt F) → (⟨S100000x64, .f32⟩ : BufTy).Contents (Elt F)),
    binary main_v61 main_v60 main_v62 (Host.divf : (⟨S100000x64, .f32⟩ : BufTy).Contents (Elt F) → (⟨S100000x64, .f32⟩ : BufTy).Contents (Elt F) → (⟨S100000x64, .f32⟩ : BufTy).Contents (Elt F)),
    unary main_v51 main_v63 ((extractStridedSlice S100000x64 ![0, 64] · slices_S100000x192_S100000x64_0_64) : (⟨S100000x192, .f32⟩ : BufTy).Contents (Elt F) → (⟨S100000x64, .f32⟩ : BufTy).Contents (Elt F)),
    unary main_arg7 main_v64 ((extractStridedSlice S64 ![64] · slices_S192_S64_64) : (⟨S192, .f32⟩ : BufTy).Contents (Elt F) → (⟨S64, .f32⟩ : BufTy).Contents (Elt F)),
    unary main_v64 main_v65 (broadcastInDim S1x64 ![1] bcast_S64_S1x64_1 : (⟨S64, .f32⟩ : BufTy).Contents (Elt F) → (⟨S1x64, .f32⟩ : BufTy).Contents (Elt F)),
    unary main_v65 main_v66 (broadcastInDim S100000x64 ![0, 1] bcast_S1x64_S100000x64_0_1 : (⟨S1x64, .f32⟩ : BufTy).Contents (Elt F) → (⟨S100000x64, .f32⟩ : BufTy).Contents (Elt F)),
    binary main_v63 main_v66 main_v67 (addf : (⟨S100000x64, .f32⟩ : BufTy).Contents (Elt F) → (⟨S100000x64, .f32⟩ : BufTy).Contents (Elt F) → (⟨S100000x64, .f32⟩ : BufTy).Contents (Elt F)),
    unary main_v67 main_v68 (Host.negf : (⟨S100000x64, .f32⟩ : BufTy).Contents (Elt F) → (⟨S100000x64, .f32⟩ : BufTy).Contents (Elt F)),
    unary main_v68 main_v69 (Host.exp : (⟨S100000x64, .f32⟩ : BufTy).Contents (Elt F) → (⟨S100000x64, .f32⟩ : BufTy).Contents (Elt F)),
    nullary main_cst_11 (constant S_ .f32 0x3F800000#32),
    unary main_cst_11 main_v70 (broadcastInDim S100000x64 ![] bcast_S_S100000x64 : (⟨S_, .f32⟩ : BufTy).Contents (Elt F) → (⟨S100000x64, .f32⟩ : BufTy).Contents (Elt F)),
    binary main_v70 main_v69 main_v71 (addf : (⟨S100000x64, .f32⟩ : BufTy).Contents (Elt F) → (⟨S100000x64, .f32⟩ : BufTy).Contents (Elt F) → (⟨S100000x64, .f32⟩ : BufTy).Contents (Elt F)),
    nullary main_cst_12 (constant S_ .f32 0x3F800000#32),
    unary main_cst_12 main_v72 (broadcastInDim S100000x64 ![] bcast_S_S100000x64 : (⟨S_, .f32⟩ : BufTy).Contents (Elt F) → (⟨S100000x64, .f32⟩ : BufTy).Contents (Elt F)),
    binary main_v72 main_v71 main_v73 (Host.divf : (⟨S100000x64, .f32⟩ : BufTy).Contents (Elt F) → (⟨S100000x64, .f32⟩ : BufTy).Contents (Elt F) → (⟨S100000x64, .f32⟩ : BufTy).Contents (Elt F)),
    unary main_v51 main_v74 ((extractStridedSlice S100000x64 ![0, 128] · slices_S100000x192_S100000x64_0_128) : (⟨S100000x192, .f32⟩ : BufTy).Contents (Elt F) → (⟨S100000x64, .f32⟩ : BufTy).Contents (Elt F)),
    unary main_arg7 main_v75 ((extractStridedSlice S64 ![128] · slices_S192_S64_128) : (⟨S192, .f32⟩ : BufTy).Contents (Elt F) → (⟨S64, .f32⟩ : BufTy).Contents (Elt F)),
    unary main_v75 main_v76 (broadcastInDim S1x64 ![1] bcast_S64_S1x64_1 : (⟨S64, .f32⟩ : BufTy).Contents (Elt F) → (⟨S1x64, .f32⟩ : BufTy).Contents (Elt F)),
    unary main_v76 main_v77 (broadcastInDim S100000x64 ![0, 1] bcast_S1x64_S100000x64_0_1 : (⟨S1x64, .f32⟩ : BufTy).Contents (Elt F) → (⟨S100000x64, .f32⟩ : BufTy).Contents (Elt F)),
    binary main_v62 main_v77 main_v78 (mulf : (⟨S100000x64, .f32⟩ : BufTy).Contents (Elt F) → (⟨S100000x64, .f32⟩ : BufTy).Contents (Elt F) → (⟨S100000x64, .f32⟩ : BufTy).Contents (Elt F)),
    binary main_v74 main_v78 main_v79 (addf : (⟨S100000x64, .f32⟩ : BufTy).Contents (Elt F) → (⟨S100000x64, .f32⟩ : BufTy).Contents (Elt F) → (⟨S100000x64, .f32⟩ : BufTy).Contents (Elt F)),
    unary main_v79 main_v80 (Host.tanh : (⟨S100000x64, .f32⟩ : BufTy).Contents (Elt F) → (⟨S100000x64, .f32⟩ : BufTy).Contents (Elt F)),
    nullary main_cst_13 (constant S_ .f32 0x3F800000#32),
    unary main_cst_13 main_v81 (broadcastInDim S100000x64 ![] bcast_S_S100000x64 : (⟨S_, .f32⟩ : BufTy).Contents (Elt F) → (⟨S100000x64, .f32⟩ : BufTy).Contents (Elt F)),
    binary main_v81 main_v73 main_v82 (subf : (⟨S100000x64, .f32⟩ : BufTy).Contents (Elt F) → (⟨S100000x64, .f32⟩ : BufTy).Contents (Elt F) → (⟨S100000x64, .f32⟩ : BufTy).Contents (Elt F)),
    binary main_v82 main_v80 main_v83 (mulf : (⟨S100000x64, .f32⟩ : BufTy).Contents (Elt F) → (⟨S100000x64, .f32⟩ : BufTy).Contents (Elt F) → (⟨S100000x64, .f32⟩ : BufTy).Contents (Elt F)),
    unary main_arg8 main_v84 ((transpose S64x1 [1, 0] · transposes_S1x64_S64x1_1_0) : (⟨S1x64, .f32⟩ : BufTy).Contents (Elt F) → (⟨S64x1, .f32⟩ : BufTy).Contents (Elt F)),
    binary main_v83 main_v84 main_v85 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    unary main_arg9 main_v86 (broadcastInDim S1x1 ![1] bcast_S1_S1x1_1 : (⟨S1, .f32⟩ : BufTy).Contents (Elt F) → (⟨S1x1, .f32⟩ : BufTy).Contents (Elt F)),
    unary main_v86 main_v87 (broadcastInDim S100000x1 ![0, 1] bcast_S1x1_S100000x1_0_1 : (⟨S1x1, .f32⟩ : BufTy).Contents (Elt F) → (⟨S100000x1, .f32⟩ : BufTy).Contents (Elt F)),
    binary main_v85 main_v87 main_v88 (addf : (⟨S100000x1, .f32⟩ : BufTy).Contents (Elt F) → (⟨S100000x1, .f32⟩ : BufTy).Contents (Elt F) → (⟨S100000x1, .f32⟩ : BufTy).Contents (Elt F)),
    reshape main_v88 main_v89 rfl shapeCasts_S100000x1_S100000 ]

/-- @main's 108 operations, in order (a called function's operations stand in its call's place). -/
abbrev ops : List (HloOp τ sig (Elt F)) := opsA ++ (opsDot ++ (opsB ++ opsC))

set_option maxRecDepth 8192 in
set_option maxHeartbeats 4000000 in
theorem main_eq (c : Dev nD) : main (F := F) c = seq ops := rfl

/-- The fold over the whole list is the fold over the four stretches, one after the other. -/
theorem after_ops (W : Valuation τ sig (Elt F)) :
    after ops W = after opsC (after opsB (after opsDot (after opsA W))) := by
  simp only [ops, StableHlo.after_append]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only, and determines its results -/

set_option maxRecDepth 8192 in
theorem opsA_sub : (opsA : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

set_option maxRecDepth 8192 in
theorem opsA_fresh : ∀ op ∈ (opsA : List (HloOp τ sig (Elt F))), op.fresh = ∅ := by
  intro _ h; (repeat (cases h with | head => rfl | tail _ h => ?_)); exact nomatch h

set_option maxRecDepth 8192 in
theorem opsDot_sub : (opsDot : List (HloOp τ sig (Elt F))).Forall fun op => op.bufs ⊆ tcRefs τ sig :=
  binary_bufs_sub ..

set_option maxRecDepth 8192 in
theorem opsDot_fresh : ∀ op ∈ (opsDot : List (HloOp τ sig (Elt F))), op.fresh = ∅ := by
  intro _ h; (repeat (cases h with | head => rfl | tail _ h => ?_)); exact nomatch h

set_option maxRecDepth 8192 in
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

set_option maxRecDepth 8192 in
theorem opsB_fresh : ∀ op ∈ (opsB : List (HloOp τ sig (Elt F))), op.fresh = ∅ := by
  intro _ h; (repeat (cases h with | head => rfl | tail _ h => ?_)); exact nomatch h

set_option maxRecDepth 8192 in
theorem opsC_sub : (opsC : List (HloOp τ sig (Elt F))).Forall fun op => op.bufs ⊆ tcRefs τ sig :=
  ⟨unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., unary_bufs_sub .., unary_bufs_sub .., binary_bufs_sub .., binary_bufs_sub .., unary_bufs_sub .., nullary_bufs_sub .., unary_bufs_sub .., binary_bufs_sub .., binary_bufs_sub .., unary_bufs_sub .., binary_bufs_sub .., unary_bufs_sub .., unary_bufs_sub .., binary_bufs_sub .., reshape_bufs_sub ..⟩

set_option maxRecDepth 8192 in
theorem opsC_fresh : ∀ op ∈ (opsC : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig := by
  simp only [ops, List.forall_append]
  exact ⟨opsA_sub, opsDot_sub, opsB_sub, opsC_sub⟩

theorem ops_fresh : ∀ op ∈ (ops : List (HloOp τ sig (Elt F))), op.fresh = ∅ := by
  intro op h
  simp only [ops, List.mem_append] at h
  rcases h with h | h | h | h
  · exact opsA_fresh op h
  · exact opsDot_fresh op h
  · exact opsB_fresh op h
  · exact opsC_fresh op h

/-- On every device, for any float values, from any memory with zero counters: every weakly fair execution of @main
    terminates with each TensorCore buffer at the fold of the 108 operations' results over its launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ (fun _ => ops_fresh)

/-! ## What each stretch writes

Each operation writes exactly its result buffer; a stretch therefore leaves every reference outside the list of its
results as it was (`StableHlo.after_of_writes_sub`, membership in the list decided over references). -/

/-- A result buffer listed among `W` lies in `W`'s device buffers. -/
theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The references stretch A writes. -/
abbrev writesA : List (Ref sig .tc) :=
  [main_v0, main_v1, main_v2, main_v3, main_v4, main_v5, main_v6, main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_c_4, main_v22, main_v23, main_c_5, main_v24, main_v25, main_v26, main_v27, main_v28, main_v29]

set_option maxRecDepth 8192 in
theorem opsA_writes : (opsA : List (HloOp τ sig (Elt F))).Forall fun op =>
    op.writes ⊆ ((writesA).map (Proc.devRef (τ := τ) .tc)).toFinset := by
  simp only [List.Forall]
  repeat' apply And.intro
  all_goals exact single_sub_of_mem (by decide)

/-- The references stretch Dot writes. -/
abbrev writesDot : List (Ref sig .tc) :=
  [main_v30]

set_option maxRecDepth 8192 in
theorem opsDot_writes : (opsDot : List (HloOp τ sig (Elt F))).Forall fun op =>
    op.writes ⊆ ((writesDot).map (Proc.devRef (τ := τ) .tc)).toFinset := by
  simp only [List.Forall]
  repeat' apply And.intro
  all_goals exact single_sub_of_mem (by decide)

/-- The references stretch B writes. -/
abbrev writesB : List (Ref sig .tc) :=
  [main_c_6, main_v31, main_v32, main_c_7, main_v33, main_v34, main_v35, main_v36, main_v37, main_v38, main_v39, main_v40, main_cst_8, main_v41, main_v42, main_v43]

set_option maxRecDepth 8192 in
theorem opsB_writes : (opsB : List (HloOp τ sig (Elt F))).Forall fun op =>
    op.writes ⊆ ((writesB).map (Proc.devRef (τ := τ) .tc)).toFinset := by
  simp only [List.Forall]
  repeat' apply And.intro
  all_goals exact single_sub_of_mem (by decide)

/-- The references stretch C writes. -/
abbrev writesC : List (Ref sig .tc) :=
  [main_v44, main_v45, main_v46, main_v47, main_v48, main_v49, main_v50, main_v51, main_v52, main_v53, main_v54, main_v55, main_v56, main_v57, main_v58, main_cst_9, main_v59, main_v60, main_cst_10, main_v61, main_v62, main_v63, main_v64, main_v65, main_v66, main_v67, main_v68, main_v69, main_cst_11, main_v70, main_v71, main_cst_12, main_v72, main_v73, main_v74, main_v75, main_v76, main_v77, main_v78, main_v79, main_v80, main_cst_13, main_v81, main_v82, main_v83, main_v84, main_v85, main_v86, main_v87, main_v88, main_v89]

set_option maxRecDepth 8192 in
theorem opsC_writes : (opsC : List (HloOp τ sig (Elt F))).Forall fun op =>
    op.writes ⊆ ((writesC).map (Proc.devRef (τ := τ) .tc)).toFinset := by
  simp only [List.Forall]
  repeat' apply And.intro
  all_goals exact single_sub_of_mem (by decide)

end Cert.ReferenceIdeal.Hand

end
-- ==== Proof.Spec.lean ====
/-
  The mathematics both programs compute, written once, index by index, over the extended reals.

  Two pieces. `matProd`: entry (p, q) of a matrix product is the sum over k of x(p, k) · w(k, q). `headRow`: what one
  node's 64 aggregated features become — add the aggregation bias, apply the input-to-hidden weights and bias (192
  pre-activations in three groups of 64), form the reset gate r and the update gate z by the logistic function and the
  candidate n by tanh (the hidden state starts at zero, so of the hidden-to-hidden term only its bias survives, scaled by
  r inside the candidate), take (1 − z) · n, and project to one number with the output weights and bias.

  Everything is a sum, a product, `Ideal.logistic` or `Ideal.tanh` of the same operands in the same arrangement on both
  sides, so no law of the extended reals beyond reading each operation at an index is used, and finiteness of the
  inputs is never needed.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The float word of 1.0 denotes the number one. -/
theorem ofBits_one : Ideal.ofBits .f32 0x3F800000#32 = 1 := by
  simp [Ideal.ofBits, Ideal.ieee, -EReal.coe_mul]
  norm_num

/-- Entry `(p, q)` of the product of an `[A, K]` matrix with a `[K, B]` matrix. -/
def matProd {A K B : ℕ} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

/-- Column `o + j` of 192, for `j < 64` and an offset `o` with `o + 64 ≤ 192`. -/
abbrev col (o : ℕ) (ho : o + 64 ≤ 192) (j : Fin 64) : Fin 192 := ⟨o + j.val, by have := j.isLt; omega⟩

/-- The 192 pre-activations of one node: its biased features times the input-to-hidden weights, plus their bias. -/
def preact (g : Fin 64 → EReal) (bg : (⟨1, ![64]⟩ : Shape).Idx → EReal) (wih : (⟨2, ![192, 64]⟩ : Shape).Idx → EReal)
    (bih : (⟨1, ![192]⟩ : Shape).Idx → EReal) (c : Fin 192) : EReal :=
  (∑ k : Fin 64, (g k + bg (ix1 k)) * wih (ix2 c k)) + bih (ix1 c)

/-- One node's hidden state after the single step from the zero state: `(1 − z) · n`. -/
def hidden (g : Fin 64 → EReal) (bg : (⟨1, ![64]⟩ : Shape).Idx → EReal) (wih : (⟨2, ![192, 64]⟩ : Shape).Idx → EReal)
    (bih bhh : (⟨1, ![192]⟩ : Shape).Idx → EReal) (j : Fin 64) : EReal :=
  (1 - Ideal.logistic (preact g bg wih bih (col 64 (by omega) j) + bhh (ix1 (col 64 (by omega) j))))
    * Ideal.tanh (preact g bg wih bih (col 128 (by omega) j)
        + Ideal.logistic (preact g bg wih bih (col 0 (by omega) j) + bhh (ix1 (col 0 (by omega) j))) * bhh (ix1 (col 128 (by omega) j)))

/-- One node's output: its hidden state against the output weights, plus the output bias. -/
def headRow (g : Fin 64 → EReal) (bg : (⟨1, ![64]⟩ : Shape).Idx → EReal) (wih : (⟨2, ![192, 64]⟩ : Shape).Idx → EReal)
    (bih bhh : (⟨1, ![192]⟩ : Shape).Idx → EReal) (wfc : (⟨2, ![1, 64]⟩ : Shape).Idx → EReal)
    (bfc : (⟨1, ![1]⟩ : Shape).Idx → EReal) : EReal :=
  (∑ j : Fin 64, hidden g bg wih bih bhh j * wfc (ix2 (0 : Fin 1) j)) + bfc (ix1 (0 : Fin 1))

/-- The whole output as a column: row `p` is `headRow` of row `p` of the aggregated features `G`. -/
def headCol {N : ℕ} (G : (⟨2, ![N, 64]⟩ : Shape).Idx → EReal) (bg : (⟨1, ![64]⟩ : Shape).Idx → EReal)
    (wih : (⟨2, ![192, 64]⟩ : Shape).Idx → EReal) (bih bhh : (⟨1, ![192]⟩ : Shape).Idx → EReal)
    (wfc : (⟨2, ![1, 64]⟩ : Shape).Idx → EReal) (bfc : (⟨1, ![1]⟩ : Shape).Idx → EReal) :
    (⟨2, ![N, 1]⟩ : Shape).Idx → EReal :=
  fun i => headRow (fun k => G (ix2 (i 0) k)) bg wih bih bhh wfc bfc

end Cert.Spec

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.MatmulBlock.lean ====
/-
  What the first kernel stores at one grid point, entry by entry: it loads a block of 5000 rows of the node features and
  the whole 12 × 64 weight matrix, narrows both to a shorter float format (the identity on extended reals), multiplies
  them into a zero accumulator and stores the product. So entry (p, q) of the stored block is the sum over k of
  rows(p, k) · weights(k, q).
-/
import proofs.«138187_j3959959847414_2_alg».proof.Proof.Gen.KernelIdeal.Skeleton
import proofs.«138187_j3959959847414_2_alg».proof.Proof.Spec
import proofs.«138187_j3959959847414_2_alg».proof.Proof.LibPlainDot
import Idealize.ShloMosaic.PureOps.Ideal.Laws
import Idealize.ShloMosaic.Lib.ValueIdx

noncomputable section

open scoped BigOperators

namespace Cert.KernelIdeal.Hand

open Cert.KernelIdeal Cert.KernelIdeal.Gen Idealize.ShloMosaic Idealize.ShloMosaic.ValueIdx

/-- The stored block of the first kernel is the matrix product of its two loaded blocks. -/
theorem matmulBlock_apply (x0 : FVec Ideal S5000x12 .f32) (x1 : FVec Ideal S12x64 .f32) (j : S5000x64.Idx) :
    k0_pay1 (F := Ideal) x0 x1 j = Cert.Spec.matProd x0 x1 j := by
  obtain ⟨p, q, rfl⟩ : ∃ (p : Fin 5000) (q : Fin 64), j = ix2 p q := ⟨j 0, j 1, eq_ix2 j⟩
  unfold k0_pay1 Cert.Spec.matProd
  refine (Ideal.matmul_constant_zero_apply dot_S5000x12_S12x64_S5000x64_1_0_0_1_n_n none _ _ (ix2 p q)).trans ?_
  exact Cert.PlainDot.sum_eq dot_S5000x12_S12x64_S5000x64_1_0_0_1_n_n rfl rfl rfl rfl rfl rfl rfl rfl x0 x1 p q

end Cert.KernelIdeal.Hand

end
-- ==== Proof.Region0.lean ====
/-
  The first kernel's output array after its 20 grid points, as ONE function of the arrays the region finds.

  Point t loads rows 5000·t … 5000·t + 4999 of the node features (all 12 columns) and the whole weight matrix, and writes
  back rows 5000·t … 5000·t + 4999 of the output (all 64 columns). What it writes is the matrix product of what it
  loaded, so it is that block of the product of the WHOLE feature array with the weights: row p of a product depends
  only on row p of the left factor. The 20 row blocks cover the 100000 rows, so the array ends holding the whole product.
  Stated for any contents `V` of the buffers at the region's entry.
-/
import proofs.«138187_j3959959847414_2_alg».proof.Proof.Gen.KernelIdeal.Frame
import proofs.«138187_j3959959847414_2_alg».proof.Proof.MatmulBlock
import Idealize.ShloMosaic.Lib.Pipeline.Value

noncomputable section

open scoped BigOperators

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem offZero : (![0, 0] : Fin 2 → Nat) = fun _ => 0 := funext fun a => by fin_cases a <;> rfl

/-- Where each window's block sits at point `t`: the row-blocked windows at block row `t`, the weights at the origin. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point `t` is rows `5000·t …` of the feature array. -/
theorem rowsBlock0_apply (c : Dev nD) (t : Fin cfg0.N) (x : S5000x12.Idx) (k : S100000x12.Idx)
    (hk0 : (k 0).val = 5000 * t.val + (x 0).val) (hk1 : (k 1).val = (x 1).val) :
    (iblk0 V c 0 t : Vec Ideal S5000x12 .f32) x = (V c main_arg0 : S100000x12.Idx → EReal) k := by
  obtain ⟨e0, e1, -, -, -, -⟩ := blockIdx0 t
  unfold iblk0
  rw [View.read_apply]
  show V c main_arg0 _ = V c main_arg0 _
  congr 1
  funext a
  apply Fin.ext
  match a with
  | ⟨0, _⟩ => show win0_0.index t (0 : Fin 2) * 5000 + 1 * (x 0).val = (k 0).val; rw [e0, hk0]; omega
  | ⟨1, _⟩ => show win0_0.index t (1 : Fin 2) * 12 + 1 * (x 1).val = (k 1).val; rw [e1, hk1]; omega

/-- The weight block at every point is the whole weight array. -/
theorem weightsBlock0_apply (c : Dev nD) (t : Fin cfg0.N) (x : S12x64.Idx) :
    (iblk0 V c 1 t : Vec Ideal S12x64 .f32) x = (V c main_arg2 : S12x64.Idx → EReal) x := by
  obtain ⟨-, -, e2, e3, -, -⟩ := blockIdx0 t
  unfold iblk0
  rw [View.read_apply]
  show V c main_arg2 _ = V c main_arg2 _
  congr 1
  funext a
  apply Fin.ext
  match a with
  | ⟨0, _⟩ => show win0_1.index t (0 : Fin 2) * 12 + 1 * (x 0).val = (x 0).val; rw [e2]; omega
  | ⟨1, _⟩ => show win0_1.index t (1 : Fin 2) * 64 + 1 * (x 1).val = (x 1).val; rw [e3]; omega

/-- The product of the whole feature array with the weights, from the region's entry contents. -/
abbrev product0 (c : Dev nD) : S100000x64.Idx → EReal :=
  Cert.Spec.matProd (A := 100000) (K := 12) (B := 64) (V c main_arg0) (V c main_arg2)

/-- What point `t` writes back is block `t` of the whole product. -/
theorem flushed0_eq (c : Dev nD) (t : Fin cfg0.N) :
    (dat0 V c).flushed 2 t = ((cfg0.win 2).blk t).view.read (Elt Ideal) (product0 V c) := by
  show (cfg0.win 2).cut (grid0.coords t) ((dat0 V c).after 2 t) = _
  rw [after0_2]
  unfold out0_2
  rw [View.canon_unit_zero offZero]
  simp only [View.ld_unit_zero (S := S5000x12) offZero, View.ld_unit_zero (S := S12x64) offZero]
  obtain ⟨-, -, -, -, e4, e5⟩ := blockIdx0 t
  funext j
  show k0_pay1 (F := Ideal) (iblk0 V c 0 t) (iblk0 V c 1 t) j = product0 V c (((cfg0.win 2).blk t).view.emb j)
  refine (matmulBlock_apply _ _ _).trans ?_
  unfold product0 Cert.Spec.matProd
  refine Finset.sum_congr rfl fun k _ => ?_
  refine congrArg₂ (· * ·) (rowsBlock0_apply V c t _ _ ?_ rfl) ((weightsBlock0_apply V c t _).trans (congrArg (V c main_arg2) ?_))
  · show win0_2.index t (0 : Fin 2) * 5000 + 1 * (j 0).val = 5000 * t.val + (j 0).val
    rw [e4]; omega
  · funext a
    apply Fin.ext
    match a with
    | ⟨0, _⟩ => rfl
    | ⟨1, _⟩ => show (j 1).val = win0_2.index t (1 : Fin 2) * 64 + 1 * (j 1).val; rw [e5]; omega

/-- An index of the output array is in point `t`'s block iff each coordinate is in the block's range. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Every row of the output lies in some point's block: row `r` in that of point `r / 5000`. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  have ht : (i 0).val / 5000 < cfg0.N := by rw [hN]; omega
  obtain ⟨-, -, -, -, e4, e5⟩ := blockIdx0 ⟨(i 0).val / 5000, ht⟩
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 64 ≤ (i 1).val ∧ (i 1).val < win0_2.index ⟨(i 0).val / 5000, ht⟩ (1 : Fin 2) * 64 + 64
    rw [e5]; omega

/-- THE ARRAY after the region: the whole product. -/
theorem final0 (c : Dev nD) : (dat0 V c).arrAt 2 cfg0.N = product0 V c :=
  (dat0 V c).arrAt_eq_of_cover 2 (product0 V c) (fun t _ => flushed0_eq V c t) cover0

end Cert.KernelIdeal.Hand

end
-- ==== Proof.HeadBlock.lean ====
/-
  What the second kernel stores at one grid point, entry by entry. It loads a block of 4000 rows of aggregated
  features and the (small) parameter arrays whole, and computes, row by row: the biased features; their 192
  pre-activations (a product with the 64 × 192 weights plus a bias row); the reset and update gates (logistic of a
  pre-activation group plus a group of the second bias row) and the candidate (tanh of the third group plus the reset
  gate times the third bias group); (1 − update) · candidate; and the product of that with the 64 × 1 output weights plus
  the output bias. The narrowing casts are the identity on extended reals.

  The printed payloads are first restated as a composition of five named pieces (equal to the payloads by unfolding),
  and each piece is read at an index over literal coordinates.
-/
import proofs.«138187_j3959959847414_2_alg».proof.Proof.Gen.KernelIdeal.Skeleton
import proofs.«138187_j3959959847414_2_alg».proof.Proof.Spec
import proofs.«138187_j3959959847414_2_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Hand

open Cert.KernelIdeal Cert.KernelIdeal.Gen Idealize.ShloMosaic Idealize.ShloMosaic.ValueIdx
open Cert.Spec (col)

/-! ## The five pieces -/

/-- The block's rows plus the aggregation bias row. -/
def biased (x0 : FVec Ideal S4000x64 .f32) (x1 : FVec Ideal S1x64 .f32) : FVec Ideal S4000x64 .f32 :=
  addf (shapeCast S4000x64 x0 shapeCasts_S4000x64_S4000x64)
    (broadcastTo S4000x64 (shapeCast S1x64 x1 shapeCasts_S1x64_S1x64) broadcasts_S1x64_S4000x64)

/-- The 192 pre-activations of each row: a product with the weights plus the bias row. -/
def preacts (a : FVec Ideal S4000x64 .f32) (x2 : FVec Ideal S64x192 .f32) (x3 : FVec Ideal S1x192 .f32) : FVec Ideal S4000x192 .f32 :=
  addf (matmul dot_S4000x64_S64x192_S4000x192_1_0_0_1_n_n none (truncf .bf16 a bitsLt_bf16_f32)
      (truncf .bf16 (shapeCast S64x192 x2 shapeCasts_S64x192_S64x192) bitsLt_bf16_f32) (constant S4000x192 .f32 0x00000000#32))
    (broadcastTo S4000x192 (shapeCast S1x192 x3 shapeCasts_S1x192_S1x192) broadcasts_S1x192_S4000x192)

/-- The second bias row repeated over the rows. -/
def biasRows (x4 : FVec Ideal S1x192 .f32) : FVec Ideal S4000x192 .f32 :=
  broadcastTo S4000x192 (shapeCast S1x192 (shapeCast S1x192 x4 shapeCasts_S1x192_S1x192) shapeCasts_S1x192_S1x192) broadcasts_S1x192_S4000x192

/-- The gates and the new hidden state, from the pre-activations and the repeated second bias. -/
def hiddens (gi b : FVec Ideal S4000x192 .f32) : FVec Ideal S4000x64 .f32 :=
  mulf
    (subf (broadcast S4000x64 (Scalar.ofBits (F := Ideal) .f32 0x3F800000#32))
      (logistic (addf (extractStridedSlice S4000x64 ![0, 64] gi slices_S4000x192_o0_64_S4000x64)
        (extractStridedSlice S4000x64 ![0, 64] b slices_S4000x192_o0_64_S4000x64))))
    (tanh (addf (extractStridedSlice S4000x64 ![0, 128] gi slices_S4000x192_o0_128_S4000x64)
      (mulf (logistic (addf (extractStridedSlice S4000x64 ![0, 0] gi slices_S4000x192_o0_0_S4000x64)
          (extractStridedSlice S4000x64 ![0, 0] b slices_S4000x192_o0_0_S4000x64)))
        (extractStridedSlice S4000x64 ![0, 128] b slices_S4000x192_o0_128_S4000x64))))

/-- The output column: a product with the 64 × 1 weights plus the output bias. -/
def outCol (h : FVec Ideal S4000x64 .f32) (x5 : FVec Ideal S64x1 .f32) (x6 : FVec Ideal S1x1 .f32) : FVec Ideal S4000x1 .f32 :=
  addf (matmul dot_S4000x64_S64x1_S4000x1_1_0_0_1_n_n none (truncf .bf16 h bitsLt_bf16_f32)
      (truncf .bf16 (shapeCast S64x1 x5 shapeCasts_S64x1_S64x1) bitsLt_bf16_f32) (constant S4000x1 .f32 0x00000000#32))
    (broadcastTo S4000x1 (shapeCast S1x1 x6 shapeCasts_S1x1_S1x1) broadcasts_S1x1_S4000x1)

/-- The printed payloads are the five pieces composed. -/
theorem headBlock_eq (x0 : FVec Ideal S4000x64 .f32) (x1 : FVec Ideal S1x64 .f32) (x2 : FVec Ideal S64x192 .f32)
    (x3 x4 : FVec Ideal S1x192 .f32) (x5 : FVec Ideal S64x1 .f32) (x6 : FVec Ideal S1x1 .f32) :
    k1_pay1 (F := Ideal) (k1_pay2 x0 x1 x2 x3 x4 x5) (k1_pay3 x6)
      = outCol (hiddens (preacts (biased x0 x1) x2 x3) (biasRows x4)) x5 x6 := rfl

/-! ## Each piece at an index -/

theorem biased_apply (x0 : FVec Ideal S4000x64 .f32) (x1 : FVec Ideal S1x64 .f32) (p : Fin 4000) (k : Fin 64) :
    biased x0 x1 (ix2 p k) = x0 (ix2 p k) + x1 (ix2 (0 : Fin 1) k) := by
  unfold biased
  rw [shapeCast_self, shapeCast_self]
  exact congrArg (x0 (ix2 p k) + ·) (broadcastTo_1b_ab_apply x1 broadcasts_S1x64_S4000x64 p k)

theorem preacts_apply (a : FVec Ideal S4000x64 .f32) (x2 : FVec Ideal S64x192 .f32) (x3 : FVec Ideal S1x192 .f32)
    (p : Fin 4000) (c : Fin 192) :
    preacts a x2 x3 (ix2 p c) = (∑ k : Fin 64, a (ix2 p k) * x2 (ix2 k c)) + x3 (ix2 (0 : Fin 1) c) := by
  unfold preacts
  rw [shapeCast_self, shapeCast_self]
  refine (congrArg₂ (· + ·)
    ((Ideal.matmul_constant_zero_apply dot_S4000x64_S64x192_S4000x192_1_0_0_1_n_n none _ _ (ix2 p c)).trans
      (Cert.PlainDot.sum_eq dot_S4000x64_S64x192_S4000x192_1_0_0_1_n_n rfl rfl rfl rfl rfl rfl rfl rfl a x2 p c))
    (broadcastTo_1b_ab_apply x3 broadcasts_S1x192_S4000x192 p c))

theorem biasRows_apply (x4 : FVec Ideal S1x192 .f32) (p : Fin 4000) (c : Fin 192) :
    biasRows x4 (ix2 p c) = x4 (ix2 (0 : Fin 1) c) := by
  unfold biasRows
  rw [shapeCast_self, shapeCast_self]
  exact broadcastTo_1b_ab_apply x4 broadcasts_S1x192_S4000x192 p c

theorem hiddens_apply (gi b : FVec Ideal S4000x192 .f32) (p : Fin 4000) (j : Fin 64) :
    hiddens gi b (ix2 p j)
      = (1 - Ideal.logistic (gi (ix2 p (col 64 (by omega) j)) + b (ix2 p (col 64 (by omega) j))))
        * Ideal.tanh (gi (ix2 p (col 128 (by omega) j))
            + Ideal.logistic (gi (ix2 p (col 0 (by omega) j)) + b (ix2 p (col 0 (by omega) j))) * b (ix2 p (col 128 (by omega) j))) := by
  have s1 := slice2_axis1_eq 64 gi slices_S4000x192_o0_64_S4000x64 p j
  have s2 := slice2_axis1_eq 64 b slices_S4000x192_o0_64_S4000x64 p j
  have s3 := slice2_axis1_eq 128 gi slices_S4000x192_o0_128_S4000x64 p j
  have s4 := slice2_axis1_eq 128 b slices_S4000x192_o0_128_S4000x64 p j
  have s5 := slice2_axis1_eq 0 gi slices_S4000x192_o0_0_S4000x64 p j
  have s6 := slice2_axis1_eq 0 b slices_S4000x192_o0_0_S4000x64 p j
  unfold hiddens
  show (Ideal.ofBits .f32 0x3F800000#32 - Ideal.logistic (_ + _)) * Ideal.tanh (_ + Ideal.logistic (_ + _) * _) = _
  rw [s1, s2, s3, s4, s5, s6, Cert.Spec.ofBits_one]

theorem outCol_apply (h : FVec Ideal S4000x64 .f32) (x5 : FVec Ideal S64x1 .f32) (x6 : FVec Ideal S1x1 .f32)
    (p : Fin 4000) (u : Fin 1) :
    outCol h x5 x6 (ix2 p u) = (∑ j : Fin 64, h (ix2 p j) * x5 (ix2 j u)) + x6 (ix2 (0 : Fin 1) u) := by
  unfold outCol
  rw [shapeCast_self, shapeCast_self]
  refine (congrArg₂ (· + ·)
    ((Ideal.matmul_constant_zero_apply dot_S4000x64_S64x1_S4000x1_1_0_0_1_n_n none _ _ (ix2 p u)).trans
      (Cert.PlainDot.sum_eq dot_S4000x64_S64x1_S4000x1_1_0_0_1_n_n rfl rfl rfl rfl rfl rfl rfl rfl h x5 p u))
    (broadcastTo_1b_ab_apply x6 broadcasts_S1x1_S4000x1 p u))

/-! ## The stored block, row by row -/

/-- Row `j 0` of the stored block is `Spec.headRow` of that row of the loaded features, given that the loaded small
    blocks hold the parameter arrays in the layouts the host prepared (a row `[1, n]` for each bias vector, the
    transposes of the two weight matrices, a `[1, 1]` array for the output bias). -/
theorem headBlock_apply (x0 : FVec Ideal S4000x64 .f32) (x1 : FVec Ideal S1x64 .f32) (x2 : FVec Ideal S64x192 .f32)
    (x3 x4 : FVec Ideal S1x192 .f32) (x5 : FVec Ideal S64x1 .f32) (x6 : FVec Ideal S1x1 .f32)
    (bg : (⟨1, ![64]⟩ : Shape).Idx → EReal) (wih : (⟨2, ![192, 64]⟩ : Shape).Idx → EReal)
    (bih bhh : (⟨1, ![192]⟩ : Shape).Idx → EReal) (wfc : (⟨2, ![1, 64]⟩ : Shape).Idx → EReal)
    (bfc : (⟨1, ![1]⟩ : Shape).Idx → EReal)
    (h1 : ∀ k : Fin 64, x1 (ix2 (0 : Fin 1) k) = bg (ix1 k))
    (h2 : ∀ (k : Fin 64) (c : Fin 192), x2 (ix2 k c) = wih (ix2 c k))
    (h3 : ∀ c : Fin 192, x3 (ix2 (0 : Fin 1) c) = bih (ix1 c))
    (h4 : ∀ c : Fin 192, x4 (ix2 (0 : Fin 1) c) = bhh (ix1 c))
    (h5 : ∀ j : Fin 64, x5 (ix2 j (0 : Fin 1)) = wfc (ix2 (0 : Fin 1) j))
    (h6 : x6 (ix2 (0 : Fin 1) (0 : Fin 1)) = bfc (ix1 (0 : Fin 1)))
    (j : S4000x1.Idx) :
    k1_pay1 (F := Ideal) (k1_pay2 x0 x1 x2 x3 x4 x5) (k1_pay3 x6) j
      = Cert.Spec.headRow (fun k => x0 (ix2 (j 0) k)) bg wih bih bhh wfc bfc := by
  obtain ⟨p, u, rfl⟩ : ∃ (p : Fin 4000) (u : Fin 1), j = ix2 p u := ⟨j 0, j 1, eq_ix2 j⟩
  obtain rfl : u = 0 := Subsingleton.elim _ _
  rw [headBlock_eq, outCol_apply, h6]
  unfold Cert.Spec.headRow
  refine congrArg (· + bfc (ix1 (0 : Fin 1))) (Finset.sum_congr rfl fun jj _ => ?_)
  rw [h5, hiddens_apply]
  unfold Cert.Spec.hidden Cert.Spec.preact
  simp only [preacts_apply, biasRows_apply, biased_apply, h1, h2, h3, h4]

end Cert.KernelIdeal.Hand

end
-- ==== Proof.Region1.lean ====
/-
  The second kernel's output array after its 25 grid points, as ONE function of the arrays the region finds.

  Point t loads rows 4000·t … 4000·t + 3999 of the aggregated features and every parameter array whole, and writes back
  rows 4000·t … 4000·t + 3999 of the one-column output. Each output row depends only on the same row of the features, so
  what a point writes is that block of the column whose row p is `Spec.headRow` of row p of the WHOLE feature array. The
  25 row blocks cover the 100000 rows. Stated for any contents `V` of the buffers at the region's entry whose small
  arrays hold the parameters in the layouts the host stretch before the region prepares.
-/
import proofs.«138187_j3959959847414_2_alg».proof.Proof.Gen.KernelIdeal.Frame
import proofs.«138187_j3959959847414_2_alg».proof.Proof.HeadBlock
import proofs.«138187_j3959959847414_2_alg».proof.Proof.Region0
import Idealize.ShloMosaic.Lib.Pipeline.Value

noncomputable section

open scoped BigOperators

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The two row-blocked windows (features in, column out) sit at block row `t`. -/
theorem blockIdx1_rows : ∀ t : Fin cfg1.N, win1_0.index t (0 : Fin 2) = t.val ∧ win1_0.index t (1 : Fin 2) = 0
    ∧ win1_7.index t (0 : Fin 2) = t.val ∧ win1_7.index t (1 : Fin 2) = 0 :=
  (by decide +kernel : ∀ t : Fin grid1.N, _)

/-- The six parameter windows sit at the origin at every point. -/
theorem blockIdx1_small : ∀ t : Fin cfg1.N,
    (win1_1.index t (0 : Fin 2) = 0 ∧ win1_1.index t (1 : Fin 2) = 0) ∧ (win1_2.index t (0 : Fin 2) = 0 ∧ win1_2.index t (1 : Fin 2) = 0)
    ∧ (win1_3.index t (0 : Fin 2) = 0 ∧ win1_3.index t (1 : Fin 2) = 0) ∧ (win1_4.index t (0 : Fin 2) = 0 ∧ win1_4.index t (1 : Fin 2) = 0)
    ∧ (win1_5.index t (0 : Fin 2) = 0 ∧ win1_5.index t (1 : Fin 2) = 0) ∧ (win1_6.index t (0 : Fin 2) = 0 ∧ win1_6.index t (1 : Fin 2) = 0) :=
  (by decide +kernel : ∀ t : Fin grid1.N, _)

/-- The feature block at point `t` is rows `4000·t …` of the feature array. -/
theorem rowsBlock1_apply (c : Dev nD) (t : Fin cfg1.N) (x : S4000x64.Idx) (k : S100000x64.Idx)
    (hk0 : (k 0).val = 4000 * t.val + (x 0).val) (hk1 : (k 1).val = (x 1).val) :
    (iblk1 V c 0 t : Vec Ideal S4000x64 .f32) x = (V c main_v43 : S100000x64.Idx → EReal) k := by
  obtain ⟨e0, e1, -, -⟩ := blockIdx1_rows t
  unfold iblk1
  rw [View.read_apply]
  show V c main_v43 _ = V c main_v43 _
  congr 1
  funext a
  apply Fin.ext
  match a with
  | ⟨0, _⟩ => show win1_0.index t (0 : Fin 2) * 4000 + 1 * (x 0).val = (k 0).val; rw [e0, hk0]; omega
  | ⟨1, _⟩ => show win1_0.index t (1 : Fin 2) * 64 + 1 * (x 1).val = (k 1).val; rw [e1, hk1]; omega

/-- Window 1's block at every point is its whole array. -/
theorem wholeBlock1_1_apply (c : Dev nD) (t : Fin cfg1.N) (x : S1x64.Idx) :
    (iblk1 V c 1 t : Vec Ideal S1x64 .f32) x = (V c main_v46 : S1x64.Idx → EReal) x := by
  obtain ⟨e0, e1⟩ := (blockIdx1_small t).1
  unfold iblk1
  rw [View.read_apply]
  show V c main_v46 _ = V c main_v46 _
  congr 1
  funext a
  apply Fin.ext
  match a with
  | ⟨0, _⟩ => show win1_1.index t (0 : Fin 2) * 1 + 1 * (x 0).val = (x 0).val; rw [e0]; omega
  | ⟨1, _⟩ => show win1_1.index t (1 : Fin 2) * 64 + 1 * (x 1).val = (x 1).val; rw [e1]; omega

/-- Window 2's block at every point is its whole array. -/
theorem wholeBlock1_2_apply (c : Dev nD) (t : Fin cfg1.N) (x : S64x192.Idx) :
    (iblk1 V c 2 t : Vec Ideal S64x192 .f32) x = (V c main_v44 : S64x192.Idx → EReal) x := by
  obtain ⟨e0, e1⟩ := (blockIdx1_small t).2.1
  unfold iblk1
  rw [View.read_apply]
  show V c main_v44 _ = V c main_v44 _
  congr 1
  funext a
  apply Fin.ext
  match a with
  | ⟨0, _⟩ => show win1_2.index t (0 : Fin 2) * 64 + 1 * (x 0).val = (x 0).val; rw [e0]; omega
  | ⟨1, _⟩ => show win1_2.index t (1 : Fin 2) * 192 + 1 * (x 1).val = (x 1).val; rw [e1]; omega

/-- Window 3's block at every point is its whole array. -/
theorem wholeBlock1_3_apply (c : Dev nD) (t : Fin cfg1.N) (x : S1x192.Idx) :
    (iblk1 V c 3 t : Vec Ideal S1x192 .f32) x = (V c main_v47 : S1x192.Idx → EReal) x := by
  obtain ⟨e0, e1⟩ := (blockIdx1_small t).2.2.1
  unfold iblk1
  rw [View.read_apply]
  show V c main_v47 _ = V c main_v47 _
  congr 1
  funext a
  apply Fin.ext
  match a with
  | ⟨0, _⟩ => show win1_3.index t (0 : Fin 2) * 1 + 1 * (x 0).val = (x 0).val; rw [e0]; omega
  | ⟨1, _⟩ => show win1_3.index t (1 : Fin 2) * 192 + 1 * (x 1).val = (x 1).val; rw [e1]; omega

/-- Window 4's block at every point is its whole array. -/
theorem wholeBlock1_4_apply (c : Dev nD) (t : Fin cfg1.N) (x : S1x192.Idx) :
    (iblk1 V c 4 t : Vec Ideal S1x192 .f32) x = (V c main_v48 : S1x192.Idx → EReal) x := by
  obtain ⟨e0, e1⟩ := (blockIdx1_small t).2.2.2.1
  unfold iblk1
  rw [View.read_apply]
  show V c main_v48 _ = V c main_v48 _
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 192 + 1 * (x 1).val = (x 1).val; rw [e1]; omega

/-- Window 5's block at every point is its whole array. -/
theorem wholeBlock1_5_apply (c : Dev nD) (t : Fin cfg1.N) (x : S64x1.Idx) :
    (iblk1 V c 5 t : Vec Ideal S64x1 .f32) x = (V c main_v45 : S64x1.Idx → EReal) x := by
  obtain ⟨e0, e1⟩ := (blockIdx1_small t).2.2.2.2.1
  unfold iblk1
  rw [View.read_apply]
  show V c main_v45 _ = V c main_v45 _
  congr 1
  funext a
  apply Fin.ext
  match a with
  | ⟨0, _⟩ => show win1_5.index t (0 : Fin 2) * 64 + 1 * (x 0).val = (x 0).val; rw [e0]; omega
  | ⟨1, _⟩ => show win1_5.index t (1 : Fin 2) * 1 + 1 * (x 1).val = (x 1).val; rw [e1]; omega

/-- Window 6's block at every point is its whole array. -/
theorem wholeBlock1_6_apply (c : Dev nD) (t : Fin cfg1.N) (x : S1x1.Idx) :
    (iblk1 V c 6 t : Vec Ideal S1x1 .f32) x = (V c main_v49 : S1x1.Idx → EReal) x := by
  obtain ⟨e0, e1⟩ := (blockIdx1_small t).2.2.2.2.2
  unfold iblk1
  rw [View.read_apply]
  show V c main_v49 _ = V c main_v49 _
  congr 1
  funext a
  apply Fin.ext
  match a with
  | ⟨0, _⟩ => show win1_6.index t (0 : Fin 2) * 1 + 1 * (x 0).val = (x 0).val; rw [e0]; omega
  | ⟨1, _⟩ => show win1_6.index t (1 : Fin 2) * 1 + 1 * (x 1).val = (x 1).val; rw [e1]; omega

/-- The output column from the region's entry contents and the parameter arrays. -/
abbrev column1 (c : Dev nD) (bg : (⟨1, ![64]⟩ : Shape).Idx → EReal) (wih : (⟨2, ![192, 64]⟩ : Shape).Idx → EReal)
    (bih bhh : (⟨1, ![192]⟩ : Shape).Idx → EReal) (wfc : (⟨2, ![1, 64]⟩ : Shape).Idx → EReal)
    (bfc : (⟨1, ![1]⟩ : Shape).Idx → EReal) : S100000x1.Idx → EReal :=
  Cert.Spec.headCol (N := 100000) (V c main_v43) bg wih bih bhh wfc bfc

section Final

variable (c : Dev nD) (bg : (⟨1, ![64]⟩ : Shape).Idx → EReal) (wih : (⟨2, ![192, 64]⟩ : Shape).Idx → EReal)
  (bih bhh : (⟨1, ![192]⟩ : Shape).Idx → EReal) (wfc : (⟨2, ![1, 64]⟩ : Shape).Idx → EReal)
  (bfc : (⟨1, ![1]⟩ : Shape).Idx → EReal)
  (h1 : ∀ k : Fin 64, (V c main_v46 : S1x64.Idx → EReal) (ix2 (0 : Fin 1) k) = bg (ix1 k))
  (h2 : ∀ (k : Fin 64) (q : Fin 192), (V c main_v44 : S64x192.Idx → EReal) (ix2 k q) = wih (ix2 q k))
  (h3 : ∀ q : Fin 192, (V c main_v47 : S1x192.Idx → EReal) (ix2 (0 : Fin 1) q) = bih (ix1 q))
  (h4 : ∀ q : Fin 192, (V c main_v48 : S1x192.Idx → EReal) (ix2 (0 : Fin 1) q) = bhh (ix1 q))
  (h5 : ∀ j : Fin 64, (V c main_v45 : S64x1.Idx → EReal) (ix2 j (0 : Fin 1)) = wfc (ix2 (0 : Fin 1) j))
  (h6 : (V c main_v49 : S1x1.Idx → EReal) (ix2 (0 : Fin 1) (0 : Fin 1)) = bfc (ix1 (0 : Fin 1)))

include h1 h2 h3 h4 h5 h6 in
/-- What point `t` writes back is block `t` of the output column. -/
theorem flushed1_eq (t : Fin cfg1.N) :
    (dat1 V c).flushed 7 t = ((cfg1.win 7).blk t).view.read (Elt Ideal) (column1 V c bg wih bih bhh wfc bfc) := by
  show (cfg1.win 7).cut (grid1.coords t) ((dat1 V c).after 7 t) = _
  rw [after1_7]
  unfold out1_7
  rw [View.canon_unit_zero offZero]
  simp only [View.ld_unit_zero (S := S4000x64) offZero, View.ld_unit_zero (S := S1x64) offZero,
    View.ld_unit_zero (S := S64x192) offZero, View.ld_unit_zero (S := S1x192) offZero,
    View.ld_unit_zero (S := S64x1) offZero, View.ld_unit_zero (S := S1x1) offZero]
  obtain ⟨-, -, e2, e3⟩ := blockIdx1_rows t
  funext j
  show k1_pay1 (F := Ideal) (k1_pay2 (iblk1 V c 0 t) (iblk1 V c 1 t) (iblk1 V c 2 t) (iblk1 V c 3 t) (iblk1 V c 4 t) (iblk1 V c 5 t))
      (k1_pay3 (iblk1 V c 6 t)) j = column1 V c bg wih bih bhh wfc bfc (((cfg1.win 7).blk t).view.emb j)
  refine (headBlock_apply _ _ _ _ _ _ _ bg wih bih bhh wfc bfc
    (fun k => (wholeBlock1_1_apply V c t _).trans (h1 k))
    (fun k q => (wholeBlock1_2_apply V c t _).trans (h2 k q))
    (fun q => (wholeBlock1_3_apply V c t _).trans (h3 q))
    (fun q => (wholeBlock1_4_apply V c t _).trans (h4 q))
    (fun jj => (wholeBlock1_5_apply V c t _).trans (h5 jj))
    ((wholeBlock1_6_apply V c t _).trans h6) _).trans ?_
  unfold column1 Cert.Spec.headCol
  refine congrArg (fun g => Cert.Spec.headRow g bg wih bih bhh wfc bfc) (funext fun k => ?_)
  refine rowsBlock1_apply V c t _ _ ?_ rfl
  show win1_7.index t (0 : Fin 2) * 4000 + 1 * (j 0).val = 4000 * t.val + (j 0).val
  rw [e2]; omega

/-- An index of the output array is in point `t`'s block iff each coordinate is in the block's range. -/
theorem mem_blk1 (t : Fin cfg1.N) (i : S100000x1.Idx) :
    i ∈ ((cfg1.win 7).blk t).view.set ↔ ∀ a : Fin 2, win1_7.index t a * S4000x1.size a ≤ (i a).val ∧ (i a).val < win1_7.index t a * S4000x1.size a + S4000x1.size a := by
  show i ∈ ((View.whole main_v50).slice (win1_7.rect t)).set ↔ _
  rw [View.set_slice_whole, Rect.mem_set_unit]
  exact Iff.rfl

/-- Every row of the output lies in some point's block: row `r` in that of point `r / 4000`. -/
theorem cover1 (i : S100000x1.Idx) :
    ∃ t : Fin cfg1.N, (cfg1.win 7).flush t = true ∧ i ∈ ((cfg1.win 7).blk t).view.set := by
  have hi0 : (i 0).val < 100000 := (i 0).isLt
  have hi1 : (i 1).val < 1 := (i 1).isLt
  have hN : cfg1.N = 25 := N_1
  have ht : (i 0).val / 4000 < cfg1.N := by rw [hN]; omega
  obtain ⟨-, -, e2, e3⟩ := blockIdx1_rows ⟨(i 0).val / 4000, ht⟩
  refine ⟨⟨(i 0).val / 4000, ht⟩, flush1_7 _, ?_⟩
  rw [mem_blk1]
  intro a
  match a with
  | ⟨0, _⟩ =>
    show win1_7.index ⟨(i 0).val / 4000, ht⟩ (0 : Fin 2) * 4000 ≤ (i 0).val ∧ (i 0).val < win1_7.index ⟨(i 0).val / 4000, ht⟩ (0 : Fin 2) * 4000 + 4000
    rw [e2]; show (i 0).val / 4000 * 4000 ≤ (i 0).val ∧ (i 0).val < (i 0).val / 4000 * 4000 + 4000; omega
  | ⟨1, _⟩ =>
    show win1_7.index ⟨(i 0).val / 4000, ht⟩ (1 : Fin 2) * 1 ≤ (i 1).val ∧ (i 1).val < win1_7.index ⟨(i 0).val / 4000, ht⟩ (1 : Fin 2) * 1 + 1
    rw [e3]; omega

include h1 h2 h3 h4 h5 h6 in
/-- THE ARRAY after the region: the output column. -/
theorem final1 : (dat1 V c).arrAt 7 cfg1.N = column1 V c bg wih bih bhh wfc bfc :=
  (dat1 V c).arrAt_eq_of_cover 7 (column1 V c bg wih bih bhh wfc bfc)
    (fun t _ => flushed1_eq V c bg wih bih bhh wfc bfc h1 h2 h3 h4 h5 h6 t) cover1

end Final

end Cert.KernelIdeal.Hand

end
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.KernelHost.lean ====
/-
  Reading the kernel program's segment boundaries.

  Between the launch and the return the buffers pass through seven segments: three host stretches, the first kernel,
  a host stretch, the second kernel, and a final reshape. Read here: no stretch and no region writes an argument array,
  so at every boundary an argument holds its launch contents; the first kernel's output array is the product of the
  node features with the weights; at the second kernel's entry the small arrays hold the parameters as a row per bias
  vector, the transposes of the two weight matrices and a one-entry array for the output bias; and the result array,
  row p, is `Spec.headRow` of row p of the aggregated features held at the second kernel's entry.
-/
import proofs.«138187_j3959959847414_2_alg».proof.Proof.Gen.KernelIdeal.Frame
import proofs.«138187_j3959959847414_2_alg».proof.Proof.Region0
import proofs.«138187_j3959959847414_2_alg».proof.Proof.Region1
import proofs.«138187_j3959959847414_2_alg».proof.Proof.LibColumnLayout
import Idealize.ShloMosaic.Lib.StableHlo.Run
import Idealize.ShloMosaic.Lib.ValueLayout
import Idealize.ShloMosaic.Lib.Pipeline.Value

noncomputable section

open scoped BigOperators

namespace Cert.KernelIdeal.Hand

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg) (c : Dev nD)

/-! ## The arguments at the boundaries -/

/-- The contents at the first kernel's entry, at a buffer the three stretches before it do not write. -/
macro "through_entry0" : tactic =>
  `(tactic| (dsimp only [W3, W2, W1, hostOps0, hostOps0_1, hostOps0_2]; after_results_simp))

theorem entry0_arg0 : W3 m ρ c (Proc.devRef .tc main_arg0) = m ((c : Thread nD τ).loc main_arg0) := by through_entry0
theorem entry0_arg2 : W3 m ρ c (Proc.devRef .tc main_arg2) = m ((c : Thread nD τ).loc main_arg2) := by through_entry0
theorem exit0_arg3 : W4 m ρ c (Proc.devRef .tc main_arg3) = m ((c : Thread nD τ).loc main_arg3) :=
  (W4_of_ne m ρ c main_arg3 (by decide)).trans (by through_entry0)
theorem exit0_arg4 : W4 m ρ c (Proc.devRef .tc main_arg4) = m ((c : Thread nD τ).loc main_arg4) :=
  (W4_of_ne m ρ c main_arg4 (by decide)).trans (by through_entry0)
theorem exit0_arg6 : W4 m ρ c (Proc.devRef .tc main_arg6) = m ((c : Thread nD τ).loc main_arg6) :=
  (W4_of_ne m ρ c main_arg6 (by decide)).trans (by through_entry0)
theorem exit0_arg7 : W4 m ρ c (Proc.devRef .tc main_arg7) = m ((c : Thread nD τ).loc main_arg7) :=
  (W4_of_ne m ρ c main_arg7 (by decide)).trans (by through_entry0)
theorem exit0_arg8 : W4 m ρ c (Proc.devRef .tc main_arg8) = m ((c : Thread nD τ).loc main_arg8) :=
  (W4_of_ne m ρ c main_arg8 (by decide)).trans (by through_entry0)
theorem exit0_arg9 : W4 m ρ c (Proc.devRef .tc main_arg9) = m ((c : Thread nD τ).loc main_arg9) :=
  (W4_of_ne m ρ c main_arg9 (by decide)).trans (by through_entry0)

/-! ## The first kernel's output -/

/-- After the first kernel its output array holds the product of the launched node features with the launched weights. -/
theorem product_read :
    W4 m ρ c (Proc.devRef .tc main_v30)
      = Cert.Spec.matProd (A := 100000) (K := 12) (B := 64) (m ((c : Thread nD τ).loc main_arg0)) (m ((c : Thread nD τ).loc main_arg2)) :=
  (W4_arr m ρ c 2).trans ((final0 (V3 m ρ) c).trans
    (congrArg₂ (Cert.Spec.matProd (A := 100000) (K := 12) (B := 64)) (entry0_arg0 m ρ c) (entry0_arg2 m ρ c)))

/-! ## The parameters at the second kernel's entry -/

theorem entry1_bias_gcn (k : Fin 64) :
    (W5 m ρ c (Proc.devRef .tc main_v46) : S1x64.Idx → EReal) (ix2 (0 : Fin 1) k)
      = (m ((c : Thread nD τ).loc main_arg3) : S64.Idx → EReal) (ix1 k) := by
  have e : W5 m ρ c (Proc.devRef .tc main_v46) = shapeCast S1x64 (W4 m ρ c (Proc.devRef .tc main_arg3)) shapeCasts_S64_S1x64 := by
    dsimp only [W5, hostOps1]; after_results_simp <;> rfl
  rw [e, exit0_arg3]
  exact shapeCast_a_1a_apply _ _ 0 k

theorem entry1_weights_ih (k : Fin 64) (q : Fin 192) :
    (W5 m ρ c (Proc.devRef .tc main_v44) : S64x192.Idx → EReal) (ix2 k q)
      = (m ((c : Thread nD τ).loc main_arg4) : S192x64.Idx → EReal) (ix2 q k) := by
  have e : W5 m ρ c (Proc.devRef .tc main_v44) = transpose S64x192 [1, 0] (W4 m ρ c (Proc.devRef .tc main_arg4)) transposes_S192x64_S64x192_1_0 := by
    dsimp only [W5, hostOps1]; after_results_simp <;> rfl
  rw [e, exit0_arg4]
  exact transpose_ix2_apply _ _ k q

theorem entry1_bias_ih (q : Fin 192) :
    (W5 m ρ c (Proc.devRef .tc main_v47) : S1x192.Idx → EReal) (ix2 (0 : Fin 1) q)
      = (m ((c : Thread nD τ).loc main_arg6) : S192.Idx → EReal) (ix1 q) := by
  have e : W5 m ρ c (Proc.devRef .tc main_v47) = shapeCast S1x192 (W4 m ρ c (Proc.devRef .tc main_arg6)) shapeCasts_S192_S1x192 := by
    dsimp only [W5, hostOps1]; after_results_simp <;> rfl
  rw [e, exit0_arg6]
  exact shapeCast_a_1a_apply _ _ 0 q

theorem entry1_bias_hh (q : Fin 192) :
    (W5 m ρ c (Proc.devRef .tc main_v48) : S1x192.Idx → EReal) (ix2 (0 : Fin 1) q)
      = (m ((c : Thread nD τ).loc main_arg7) : S192.Idx → EReal) (ix1 q) := by
  have e : W5 m ρ c (Proc.devRef .tc main_v48) = shapeCast S1x192 (W4 m ρ c (Proc.devRef .tc main_arg7)) shapeCasts_S192_S1x192 := by
    dsimp only [W5, hostOps1]; after_results_simp <;> rfl
  rw [e, exit0_arg7]
  exact shapeCast_a_1a_apply _ _ 0 q

theorem entry1_weights_fc (j : Fin 64) :
    (W5 m ρ c (Proc.devRef .tc main_v45) : S64x1.Idx → EReal) (ix2 j (0 : Fin 1))
      = (m ((c : Thread nD τ).loc main_arg8) : S1x64.Idx → EReal) (ix2 (0 : Fin 1) j) := by
  have e : W5 m ρ c (Proc.devRef .tc main_v45) = transpose S64x1 [1, 0] (W4 m ρ c (Proc.devRef .tc main_arg8)) transposes_S1x64_S64x1_1_0 := by
    dsimp only [W5, hostOps1]; after_results_simp <;> rfl
  rw [e, exit0_arg8]
  exact transpose_ix2_apply _ _ j 0

theorem entry1_bias_fc :
    (W5 m ρ c (Proc.devRef .tc main_v49) : S1x1.Idx → EReal) (ix2 (0 : Fin 1) (0 : Fin 1))
      = (m ((c : Thread nD τ).loc main_arg9) : S1.Idx → EReal) (ix1 (0 : Fin 1)) := by
  have e : W5 m ρ c (Proc.devRef .tc main_v49) = shapeCast S1x1 (W4 m ρ c (Proc.devRef .tc main_arg9)) shapeCasts_S1_S1x1 := by
    dsimp only [W5, hostOps1]; after_results_simp <;> rfl
  rw [e, exit0_arg9]
  exact shapeCast_a_1a_apply _ _ 0 0

/-! ## The result -/

/-- Row `p` of the result is `Spec.headRow` of row `p` of the aggregated features at the second kernel's entry and the
    launched parameter arrays. -/
theorem result_read (p : Fin 100000) :
    (W7 m ρ c (Proc.devRef .tc main_v51) : S100000.Idx → EReal) (ix1 p)
      = Cert.Spec.headRow (fun k => (W5 m ρ c (Proc.devRef .tc main_v43) : S100000x64.Idx → EReal) (ix2 p k))
          (m ((c : Thread nD τ).loc main_arg3)) (m ((c : Thread nD τ).loc main_arg4)) (m ((c : Thread nD τ).loc main_arg6))
          (m ((c : Thread nD τ).loc main_arg7)) (m ((c : Thread nD τ).loc main_arg8)) (m ((c : Thread nD τ).loc main_arg9)) := by
  have e : W7 m ρ c (Proc.devRef .tc main_v51) = shapeCast S100000 (W6 m ρ c (Proc.devRef .tc main_v50)) shapeCasts_S100000x1_S100000 := by
    dsimp only [W7, hostOps2]; after_results_simp <;> rfl
  rw [e]
  refine (Cert.ColumnLayout.shapeCast_a1_a_apply _ _ p).trans ?_
  exact congrFun ((W6_arr m ρ c 7).trans (final1 (V5 m ρ) c
    (m ((c : Thread nD τ).loc main_arg3)) (m ((c : Thread nD τ).loc main_arg4)) (m ((c : Thread nD τ).loc main_arg6))
    (m ((c : Thread nD τ).loc main_arg7)) (m ((c : Thread nD τ).loc main_arg8)) (m ((c : Thread nD τ).loc main_arg9))
    (entry1_bias_gcn m ρ c) (entry1_weights_ih m ρ c) (entry1_bias_ih m ρ c) (entry1_bias_hh m ρ c)
    (entry1_weights_fc m ρ c) (entry1_bias_fc m ρ c))) (ix2 p (0 : Fin 1))

end Cert.KernelIdeal.Hand

end
-- ==== Proof.LibJoinPair.lean ====
/-
  Two arrays joined along an axis, with the side condition stated of the shapes alone.

  The joined array `concatenate t a [⟨s₁, x₁⟩, ⟨s₂, x₂⟩] h` carries a side condition `h` whose statement mentions the list
  of (shape, array) pairs, although it only reads the shapes. That dependence stands in the way of rewriting the two
  arrays in place: a rewriting pass keeps the whole list fixed. `joinPair` is the same function with the side condition
  stated of `[s₁, s₂]`; the two are equal by unfolding, for any element type, any shapes and any axis. Rewriting a
  two-piece join to `joinPair` lets a later pass reach the two arrays.
-/
import Idealize.ShloMosaic.PureOps.ShapeOps

noncomputable section

namespace Cert.JoinPair

open Idealize.ShloMosaic

/-- Two arrays joined along axis `a` of the result shape `t`. -/
def joinPair {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- A two-piece join is `joinPair` of its pieces: a rewrite rule from the list form to the form whose arrays can be
    rewritten. -/
theorem concatenate_pair_eq {α : Type} (t : Shape) (a : Fin t.rank) (s₁ s₂ : Shape) (x₁ : s₁.Idx → α) (x₂ : s₂.Idx → α)
    (h : Shape.Concatenates (List.map (fun p : (s : Shape) × (s.Idx → α) => p.1) [⟨s₁, x₁⟩, ⟨s₂, x₂⟩]) t a) :
    concatenate t a [⟨s₁, x₁⟩, ⟨s₂, x₂⟩] h = joinPair t a s₁ s₂ h x₁ x₂ := rfl

end Cert.JoinPair

end
-- ==== Proof.Agree.lean ====
/-
  The host operations the two programs share.

  Around its two kernels the kernel program runs, operation for operation, the reference's own host operations: the
  edge list extended by self-loops, the degrees and the symmetric normalisation (a scatter-add of ones, a reciprocal
  square root, two gathers and a product) before the first kernel; and, between the kernels, the gather of the
  projected features along the source nodes, their scaling, and the scatter-add along the destination nodes. So each
  buffer these operations produce is ONE function of the buffers they read, whichever program runs them: reading both
  folds leaves the same term on the two sides once the inputs are identified. (The edge endpoints are joined with the
  self-loop indices by a two-piece join; it is first put in the form whose two pieces can be read in place.)
-/
import proofs.«138187_j3959959847414_2_alg».proof.Proof.Gen.KernelIdeal.Frame
import proofs.«138187_j3959959847414_2_alg».proof.Proof.RefRun
import proofs.«138187_j3959959847414_2_alg».proof.Proof.LibJoinPair
import Idealize.ShloMosaic.Lib.StableHlo.Run
import Idealize.ShloMosaic.PureOps.Ideal

set_option maxRecDepth 8192

noncomputable section

namespace Cert.Agree

open Idealize.ShloMosaic Idealize.ShloMosaic.TcCoe Idealize.SL.Sem Idealize.ShloMosaic.StableHlo
open Cert.JoinPair (concatenate_pair_eq)

/-- Buffer contents of the kernel program's, and of the reference's, TensorCore. -/
abbrev KV := Valuation Cert.KernelIdeal.τ Cert.KernelIdeal.sig (Elt Ideal)
abbrev RV := Valuation Cert.ReferenceIdeal.τ Cert.ReferenceIdeal.sig (Elt Ideal)

/-! ## Before the first kernel: sources, destinations, normalisation -/

theorem prefix_main_v3 (X : KV) (Y : RV) (h1 : X (Proc.devRef .tc Cert.KernelIdeal.main_arg1) = Y (Proc.devRef .tc Cert.ReferenceIdeal.main_arg1)) :
    after (Cert.KernelIdeal.Gen.hostOps0_2 (F := Ideal)) (after Cert.KernelIdeal.Gen.hostOps0_1 (after Cert.KernelIdeal.Gen.hostOps0 X)) (Proc.devRef .tc Cert.KernelIdeal.main_v3)
      = after (Cert.ReferenceIdeal.Hand.opsA (F := Ideal)) Y (Proc.devRef .tc Cert.ReferenceIdeal.main_v3) := by
  dsimp only [Cert.KernelIdeal.Gen.hostOps0, Cert.KernelIdeal.Gen.hostOps0_1, Cert.KernelIdeal.Gen.hostOps0_2, Cert.ReferenceIdeal.Hand.opsA]
  after_results_simp
  simp only [concatenate_pair_eq]
  after_results_simp
  generalize X (Proc.devRef .tc Cert.KernelIdeal.main_arg1) = a at h1 ⊢
  subst h1
  rfl

theorem prefix_main_v6 (X : KV) (Y : RV) (h1 : X (Proc.devRef .tc Cert.KernelIdeal.main_arg1) = Y (Proc.devRef .tc Cert.ReferenceIdeal.main_arg1)) :
    after (Cert.KernelIdeal.Gen.hostOps0_2 (F := Ideal)) (after Cert.KernelIdeal.Gen.hostOps0_1 (after Cert.KernelIdeal.Gen.hostOps0 X)) (Proc.devRef .tc Cert.KernelIdeal.main_v6)
      = after (Cert.ReferenceIdeal.Hand.opsA (F := Ideal)) Y (Proc.devRef .tc Cert.ReferenceIdeal.main_v6) := by
  dsimp only [Cert.KernelIdeal.Gen.hostOps0, Cert.KernelIdeal.Gen.hostOps0_1, Cert.KernelIdeal.Gen.hostOps0_2, Cert.ReferenceIdeal.Hand.opsA]
  after_results_simp
  simp only [concatenate_pair_eq]
  after_results_simp
  generalize X (Proc.devRef .tc Cert.KernelIdeal.main_arg1) = a at h1 ⊢
  subst h1
  rfl

theorem prefix_main_v29 (X : KV) (Y : RV) (h1 : X (Proc.devRef .tc Cert.KernelIdeal.main_arg1) = Y (Proc.devRef .tc Cert.ReferenceIdeal.main_arg1)) :
    after (Cert.KernelIdeal.Gen.hostOps0_2 (F := Ideal)) (after Cert.KernelIdeal.Gen.hostOps0_1 (after Cert.KernelIdeal.Gen.hostOps0 X)) (Proc.devRef .tc Cert.KernelIdeal.main_v29)
      = after (Cert.ReferenceIdeal.Hand.opsA (F := Ideal)) Y (Proc.devRef .tc Cert.ReferenceIdeal.main_v29) := by
  dsimp only [Cert.KernelIdeal.Gen.hostOps0, Cert.KernelIdeal.Gen.hostOps0_1, Cert.KernelIdeal.Gen.hostOps0_2, Cert.ReferenceIdeal.Hand.opsA]
  after_results_simp
  simp only [concatenate_pair_eq]
  after_results_simp
  generalize X (Proc.devRef .tc Cert.KernelIdeal.main_arg1) = a at h1 ⊢
  subst h1
  rfl

/-! ## Between the kernels: gather, scale, scatter-add -/

theorem middle (X : KV) (Y : RV) (h3 : X (Proc.devRef .tc Cert.KernelIdeal.main_v3) = Y (Proc.devRef .tc Cert.ReferenceIdeal.main_v3)) (h6 : X (Proc.devRef .tc Cert.KernelIdeal.main_v6) = Y (Proc.devRef .tc Cert.ReferenceIdeal.main_v6))
    (h29 : X (Proc.devRef .tc Cert.KernelIdeal.main_v29) = Y (Proc.devRef .tc Cert.ReferenceIdeal.main_v29)) (h30 : X (Proc.devRef .tc Cert.KernelIdeal.main_v30) = Y (Proc.devRef .tc Cert.ReferenceIdeal.main_v30)) :
    after (Cert.KernelIdeal.Gen.hostOps1 (F := Ideal)) X (Proc.devRef .tc Cert.KernelIdeal.main_v43) = after (Cert.ReferenceIdeal.Hand.opsB (F := Ideal)) Y (Proc.devRef .tc Cert.ReferenceIdeal.main_v43) := by
  dsimp only [Cert.KernelIdeal.Gen.hostOps1, Cert.ReferenceIdeal.Hand.opsB]
  after_results_simp
  generalize X (Proc.devRef .tc Cert.KernelIdeal.main_v3) = a3 at h3 ⊢
  generalize X (Proc.devRef .tc Cert.KernelIdeal.main_v6) = a6 at h6 ⊢
  generalize X (Proc.devRef .tc Cert.KernelIdeal.main_v29) = a29 at h29 ⊢
  generalize X (Proc.devRef .tc Cert.KernelIdeal.main_v30) = a30 at h30 ⊢
  subst h3 h6 h29 h30
  rfl

end Cert.Agree

end
-- ==== Proof.RefTail.lean ====
/-
  The reference's first matrix product read at an index, and its last stretch read at a row.

  The last 51 operations turn the aggregated features into the output, one row at a time: they add the aggregation
  bias, multiply by the transposed input-to-hidden weights and add their bias (192 pre-activations per row), cut the
  pre-activations and the hidden-to-hidden bias into three groups of 64, form the two gates by 1 / (1 + exp (−x)) — the
  logistic function, spelt with the float word of 1.0 for each 1 — and the candidate by tanh, take (1 − z) · n, multiply
  by the transposed output weights, add the output bias and drop the unit axis. Read at row p this is the
  specification's headRow of row p of the aggregated features, with the parameter arrays as they are given: each layout
  operation (a bias laid out as a row and repeated over rows, a transpose, a cut along the columns, the final cast)
  only renames the index it reads, and each arithmetic operation acts index by index.
-/
import proofs.«138187_j3959959847414_2_alg».proof.Proof.RefRun
import proofs.«138187_j3959959847414_2_alg».proof.Proof.Spec
import proofs.«138187_j3959959847414_2_alg».proof.Proof.LibPlainDot
import proofs.«138187_j3959959847414_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-! ## Layout operations read at an index -/

section Layout

variable {α : Type}

/-- A vector laid out as one row, the row then repeated over m rows: at (p, c) it reads the vector at c. -/
theorem rowBias_apply {m n : ℕ} (b : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (c : Fin n) :
    broadcastInDim ⟨2, ![m, n]⟩ ![0, 1] h2 (broadcastInDim ⟨2, ![1, n]⟩ ![1] h1 b) (ix2 p c) = b (ix1 c) := by
  refine (broadcastInDim_apply _ h2 _ (ix2 p c) (ix2 (0 : Fin 1) c) fun a => ?_).trans
    (broadcastInDim_apply _ h1 b (ix2 (0 : Fin 1) c) (ix1 c) fun a => ?_)
  · match a with
    | ⟨0, _⟩ =>
      show (0 : ℕ) = if (1 : ℕ) = 1 then 0 else p.val
      rw [if_pos rfl]
    | ⟨1, _⟩ =>
      show c.val = if n = 1 then 0 else c.val
      split
      · have := c.isLt; omega
      · rfl
  · match a with
    | ⟨0, _⟩ =>
      show c.val = if n = 1 then 0 else c.val
      split
      · have := c.isLt; omega
      · rfl

/-- One number repeated over every index of a shape reads, anywhere, as that number. -/
theorem scalarBcast_apply {t : Shape} (h : (⟨0, ![]⟩ : Shape).BroadcastsInDim t ![]) (x : (⟨0, ![]⟩ : Shape).Idx → α)
    (i : t.Idx) : broadcastInDim t ![] h x i = x ix0 :=
  broadcastInDim_apply _ h x i ix0 fun a => a.elim0

/-- A vector cut from position o reads, at j, the vector at o + j. -/
theorem slice1_apply {n m : ℕ} (o : ℕ) (x : (⟨1, ![n]⟩ : Shape).Idx → α) (h : (⟨1, ![n]⟩ : Shape).Slices ![o] ⟨1, ![m]⟩)
    (j : Fin m) (k : Fin n) (hk : k.val = o + j.val) : extractStridedSlice ⟨1, ![m]⟩ ![o] x h (ix1 j) = x (ix1 k) :=
  extractStridedSlice_apply _ _ _ _ _ fun a => by
    match a with
    | ⟨0, _⟩ => exact hk

end Layout

/-! ## The three matrix products as plain sums -/

theorem dot12_apply (l : FVec Ideal S100000x12 .f32) (r : FVec Ideal S12x64 .f32) (p : Fin 100000) (q : Fin 64) :
    Host.dotGeneral dot_S100000x12_S12x64_S100000x64_1_0_0_1_n_n none l r (ix2 p q) = ∑ k : Fin 12, l (ix2 p k) * r (ix2 k q) :=
  (Ideal.dotGeneral_apply dot_S100000x12_S12x64_S100000x64_1_0_0_1_n_n none _ l r (ix2 p q)).trans
    (Cert.PlainDot.sum_eq dot_S100000x12_S12x64_S100000x64_1_0_0_1_n_n rfl rfl rfl rfl rfl rfl rfl rfl l r p q)

theorem dot192_apply (l : FVec Ideal S100000x64 .f32) (r : FVec Ideal S64x192 .f32) (p : Fin 100000) (q : Fin 192) :
    Host.dotGeneral dot_S100000x64_S64x192_S100000x192_1_0_0_1_n_n none l r (ix2 p q) = ∑ k : Fin 64, l (ix2 p k) * r (ix2 k q) :=
  (Ideal.dotGeneral_apply dot_S100000x64_S64x192_S100000x192_1_0_0_1_n_n none _ l r (ix2 p q)).trans
    (Cert.PlainDot.sum_eq dot_S100000x64_S64x192_S100000x192_1_0_0_1_n_n rfl rfl rfl rfl rfl rfl rfl rfl l r p q)

theorem dot1_apply (l : FVec Ideal S100000x64 .f32) (r : FVec Ideal S64x1 .f32) (p : Fin 100000) (q : Fin 1) :
    Host.dotGeneral dot_S100000x64_S64x1_S100000x1_1_0_0_1_n_n none l r (ix2 p q) = ∑ k : Fin 64, l (ix2 p k) * r (ix2 k q) :=
  (Ideal.dotGeneral_apply dot_S100000x64_S64x1_S100000x1_1_0_0_1_n_n none _ l r (ix2 p q)).trans
    (Cert.PlainDot.sum_eq dot_S100000x64_S64x1_S100000x1_1_0_0_1_n_n rfl rfl rfl rfl rfl rfl rfl rfl l r p q)

/-- The first matrix product, at any index: the specification's product of the node features with the first weights. -/
theorem dot_apply (Y : Valuation τ sig (Elt Ideal)) (i : S100000x64.Idx) :
    after (opsDot (F := Ideal)) Y (Proc.devRef .tc main_v30) i
      = Cert.Spec.matProd (Y (Proc.devRef .tc main_arg0)) (Y (Proc.devRef .tc main_arg2)) i := by
  have h : after (opsDot (F := Ideal)) Y (Proc.devRef .tc main_v30)
      = (Host.dotGeneral (F := Ideal) (φ₁ := .f32) (φ₂ := .f32) dot_S100000x12_S12x64_S100000x64_1_0_0_1_n_n none
          (Y (Proc.devRef .tc main_arg0) : FVec Ideal S100000x12 .f32)
          (Y (Proc.devRef .tc main_arg2) : FVec Ideal S12x64 .f32) : FVec Ideal S100000x64 .f32) := by
    after_results <;> rfl
  rw [h, eq_ix2 i]
  exact dot12_apply _ _ _ _

/-! ## The last stretch's values, as functions of what it reads -/

section Values

variable (g : FVec Ideal S100000x64 .f32) (bg : FVec Ideal S64 .f32) (wih : FVec Ideal S192x64 .f32)
  (bih bhh : FVec Ideal S192 .f32) (wfc : FVec Ideal S1x64 .f32) (bfc : FVec Ideal S1 .f32)

/-- The float word of 1.0 repeated over [100000, 64]. -/
def valOne : FVec Ideal S100000x64 .f32 :=
  broadcastInDim S100000x64 ![] bcast_S_S100000x64 (constant S_ .f32 0x3F800000#32)

/-- The aggregated features plus the aggregation bias. -/
def valFeat : FVec Ideal S100000x64 .f32 :=
  addf g (broadcastInDim S100000x64 ![0, 1] bcast_S1x64_S100000x64_0_1 (broadcastInDim S1x64 ![1] bcast_S64_S1x64_1 bg))

/-- The 192 pre-activations of every row. -/
def valPre : FVec Ideal S100000x192 .f32 :=
  addf (Host.dotGeneral dot_S100000x64_S64x192_S100000x192_1_0_0_1_n_n none (valFeat g bg)
      (transpose S64x192 [1, 0] wih transposes_S192x64_S64x192_1_0))
    (broadcastInDim S100000x192 ![0, 1] bcast_S1x192_S100000x192_0_1 (broadcastInDim S1x192 ![1] bcast_S192_S1x192_1 bih))

/-- One group of 64 of the hidden-to-hidden bias, from position o, repeated over rows. -/
def valGateBias (o : ℕ) (h : S192.Slices ![o] S64) : FVec Ideal S100000x64 .f32 :=
  broadcastInDim S100000x64 ![0, 1] bcast_S1x64_S100000x64_0_1
    (broadcastInDim S1x64 ![1] bcast_S64_S1x64_1 (extractStridedSlice S64 ![o] bhh h))

/-- 1 / (1 + exp (−x)), index by index, each 1 the float word of 1.0. -/
def valSigmoid (x : FVec Ideal S100000x64 .f32) : FVec Ideal S100000x64 .f32 :=
  Host.divf valOne (addf valOne (Host.exp (Host.negf x)))

/-- The reset gate. -/
def valR : FVec Ideal S100000x64 .f32 :=
  valSigmoid (addf (extractStridedSlice S100000x64 ![0, 0] (valPre g bg wih bih) slices_S100000x192_S100000x64_0_0)
    (valGateBias bhh 0 slices_S192_S64_0))

/-- The update gate. -/
def valZ : FVec Ideal S100000x64 .f32 :=
  valSigmoid (addf (extractStridedSlice S100000x64 ![0, 64] (valPre g bg wih bih) slices_S100000x192_S100000x64_0_64)
    (valGateBias bhh 64 slices_S192_S64_64))

/-- The candidate. -/
def valN : FVec Ideal S100000x64 .f32 :=
  Host.tanh (addf (extractStridedSlice S100000x64 ![0, 128] (valPre g bg wih bih) slices_S100000x192_S100000x64_0_128)
    (mulf (valR g bg wih bih bhh) (valGateBias bhh 128 slices_S192_S64_128)))

/-- The hidden state after the one step from zero. -/
def valHidden : FVec Ideal S100000x64 .f32 :=
  mulf (subf valOne (valZ g bg wih bih bhh)) (valN g bg wih bih bhh)

/-- The output as a column. -/
def valOut : FVec Ideal S100000x1 .f32 :=
  addf (Host.dotGeneral dot_S100000x64_S64x1_S100000x1_1_0_0_1_n_n none (valHidden g bg wih bih bhh)
      (transpose S64x1 [1, 0] wfc transposes_S1x64_S64x1_1_0))
    (broadcastInDim S100000x1 ![0, 1] bcast_S1x1_S100000x1_0_1 (broadcastInDim S1x1 ![1] bcast_S1_S1x1_1 bfc))

/-- The output. -/
def valRes : FVec Ideal S100000 .f32 :=
  shapeCast S100000 (valOut g bg wih bih bhh wfc bfc) shapeCasts_S100000x1_S100000

/-! ## Each value read at an index -/

/-- The host's tanh acts index by index. -/
theorem hostTanh_apply {s : Shape} (x : FVec Ideal s .f32) (i : s.Idx) : Host.tanh x i = Ideal.tanh (x i) := rfl

theorem valOne_apply (i : S100000x64.Idx) : valOne i = 1 :=
  (scalarBcast_apply bcast_S_S100000x64 _ i).trans Cert.Spec.ofBits_one

theorem valFeat_apply (p : Fin 100000) (k : Fin 64) : valFeat g bg (ix2 p k) = g (ix2 p k) + bg (ix1 k) := by
  unfold valFeat
  rw [addf_apply, rowBias_apply]

theorem valPre_apply (p : Fin 100000) (c : Fin 192) :
    valPre g bg wih bih (ix2 p c) = Cert.Spec.preact (fun k => g (ix2 p k)) bg wih bih c := by
  unfold valPre Cert.Spec.preact
  rw [addf_apply, rowBias_apply, dot192_apply]
  refine congrArg (· + bih (ix1 c)) (Finset.sum_congr rfl fun k _ => ?_)
  rw [valFeat_apply, transpose_ix2_apply]

theorem valGateBias_apply (o : ℕ) (ho : o + 64 ≤ 192) (h : S192.Slices ![o] S64) (p : Fin 100000) (j : Fin 64) :
    valGateBias bhh o h (ix2 p j) = bhh (ix1 (Cert.Spec.col o ho j)) := by
  unfold valGateBias
  rw [rowBias_apply]
  exact slice1_apply o bhh h j _ rfl

theorem valSigmoid_apply (x : FVec Ideal S100000x64 .f32) (i : S100000x64.Idx) :
    valSigmoid x i = Ideal.logistic (x i) := by
  show Ideal.div (valOne i) (valOne i + Ideal.exp (-(x i))) = _
  rw [valOne_apply]
  rfl

theorem valPre_slice_apply (o : ℕ) (ho : o + 64 ≤ 192) (h : S100000x192.Slices ![0, o] S100000x64) (p : Fin 100000) (j : Fin 64) :
    extractStridedSlice S100000x64 ![0, o] (valPre g bg wih bih) h (ix2 p j)
      = Cert.Spec.preact (fun k => g (ix2 p k)) bg wih bih (Cert.Spec.col o ho j) :=
  (slice2_axis1_apply o _ h p j (Cert.Spec.col o ho j) rfl).trans (valPre_apply g bg wih bih p _)

theorem valR_apply (p : Fin 100000) (j : Fin 64) :
    valR g bg wih bih bhh (ix2 p j)
      = Ideal.logistic (Cert.Spec.preact (fun k => g (ix2 p k)) bg wih bih (Cert.Spec.col 0 (by omega) j)
          + bhh (ix1 (Cert.Spec.col 0 (by omega) j))) := by
  unfold valR
  rw [valSigmoid_apply, addf_apply, valPre_slice_apply g bg wih bih 0 (by omega), valGateBias_apply bhh 0 (by omega)]

theorem valZ_apply (p : Fin 100000) (j : Fin 64) :
    valZ g bg wih bih bhh (ix2 p j)
      = Ideal.logistic (Cert.Spec.preact (fun k => g (ix2 p k)) bg wih bih (Cert.Spec.col 64 (by omega) j)
          + bhh (ix1 (Cert.Spec.col 64 (by omega) j))) := by
  unfold valZ
  rw [valSigmoid_apply, addf_apply, valPre_slice_apply g bg wih bih 64 (by omega), valGateBias_apply bhh 64 (by omega)]

theorem valN_apply (p : Fin 100000) (j : Fin 64) :
    valN g bg wih bih bhh (ix2 p j)
      = Ideal.tanh (Cert.Spec.preact (fun k => g (ix2 p k)) bg wih bih (Cert.Spec.col 128 (by omega) j)
          + Ideal.logistic (Cert.Spec.preact (fun k => g (ix2 p k)) bg wih bih (Cert.Spec.col 0 (by omega) j)
              + bhh (ix1 (Cert.Spec.col 0 (by omega) j))) * bhh (ix1 (Cert.Spec.col 128 (by omega) j))) := by
  unfold valN
  rw [hostTanh_apply, addf_apply, mulf_apply, valPre_slice_apply g bg wih bih 128 (by omega), valR_apply, valGateBias_apply bhh 128 (by omega)]

theorem valHidden_apply (p : Fin 100000) (j : Fin 64) :
    valHidden g bg wih bih bhh (ix2 p j) = Cert.Spec.hidden (fun k => g (ix2 p k)) bg wih bih bhh j := by
  unfold valHidden Cert.Spec.hidden
  rw [mulf_apply, subf_apply, valOne_apply, valZ_apply, valN_apply]

theorem valOut_apply (p : Fin 100000) :
    valOut g bg wih bih bhh wfc bfc (ix2 p (0 : Fin 1))
      = Cert.Spec.headRow (fun k => g (ix2 p k)) bg wih bih bhh wfc bfc := by
  unfold valOut Cert.Spec.headRow
  rw [addf_apply, rowBias_apply, dot1_apply]
  refine congrArg (· + bfc (ix1 (0 : Fin 1))) (Finset.sum_congr rfl fun j _ => ?_)
  rw [valHidden_apply, transpose_ix2_apply]

theorem valRes_apply (p : Fin 100000) :
    valRes g bg wih bih bhh wfc bfc (ix1 p) = Cert.Spec.headRow (fun k => g (ix2 p k)) bg wih bih bhh wfc bfc :=
  (Cert.ColumnLayout.shapeCast_a1_a_apply _ shapeCasts_S100000x1_S100000 p).trans (valOut_apply g bg wih bih bhh wfc bfc p)

end Values

/-! ## The last stretch -/

set_option maxRecDepth 8192 in
/-- The last stretch leaves the output buffer at the composed value of what it reads. -/
theorem after_opsC_res (X : Valuation τ sig (Elt Ideal)) :
    after (opsC (F := Ideal)) X (Proc.devRef .tc main_v89)
      = valRes (X (Proc.devRef .tc main_v43)) (X (Proc.devRef .tc main_arg3)) (X (Proc.devRef .tc main_arg4))
          (X (Proc.devRef .tc main_arg6)) (X (Proc.devRef .tc main_arg7)) (X (Proc.devRef .tc main_arg8))
          (X (Proc.devRef .tc main_arg9)) := by
  after_results_simp <;> rfl

/-- The last stretch at row p: the specification's head applied to row p of the aggregated features. -/
theorem tail_apply (X : Valuation τ sig (Elt Ideal)) (p : Fin 100000) :
    after (opsC (F := Ideal)) X (Proc.devRef .tc main_v89) (ix1 p)
      = Cert.Spec.headRow (fun k => X (Proc.devRef .tc main_v43) (ix2 p k)) (X (Proc.devRef .tc main_arg3))
          (X (Proc.devRef .tc main_arg4)) (X (Proc.devRef .tc main_arg6)) (X (Proc.devRef .tc main_arg7))
          (X (Proc.devRef .tc main_arg8)) (X (Proc.devRef .tc main_arg9)) := by
  rw [after_opsC_res]
  exact valRes_apply _ _ _ _ _ _ _ p

end Cert.ReferenceIdeal.Hand

end
-- ==== Proof.Bridge.lean ====
/-
  The two results are one array.

  The kernel program's result, row p, is `Spec.headRow` of row p of the aggregated features it holds at its second
  kernel's entry; the reference's result, row p, is `Spec.headRow` of row p of its own aggregated features; both with
  the launched parameter arrays. The aggregated features agree: they are the same gather / scale / scatter-add of the
  projected features, which agree because the first kernel's output is the whole matrix product the reference's
  `dot_general` computes, along sources, destinations and normalisation weights that are the same host operations of
  the same edge list. The launched arrays agree by hypothesis.
-/
import proofs.«138187_j3959959847414_2_alg».proof.Proof.KernelHost
import proofs.«138187_j3959959847414_2_alg».proof.Proof.Agree
import proofs.«138187_j3959959847414_2_alg».proof.Proof.RefTail

set_option maxRecDepth 8192

noncomputable section

namespace Cert.Bridge

open Idealize.ShloMosaic Idealize.ShloMosaic.TcCoe Idealize.ShloMosaic.ValueIdx Idealize.SL.Sem Idealize.ShloMosaic.StableHlo
open Cert.Agree (KV RV)

/-! ## The reference's fold, stretch by stretch -/

section Ref

variable (m' : (ℓ : Loc Cert.ReferenceIdeal.nD Cert.ReferenceIdeal.τ Cert.ReferenceIdeal.sig) → Buf (Elt Ideal) ℓ) (c : Dev Cert.ReferenceIdeal.nD)

/-- The reference's buffers at launch, after its first forty operations, after its `dot_general`, and after its
    gather / scale / scatter-add. -/
abbrev atLaunch : RV := launchContents m' c
abbrev afterPrefix : RV := after (Cert.ReferenceIdeal.Hand.opsA (F := Ideal)) (atLaunch m' c)
abbrev afterDot : RV := after (Cert.ReferenceIdeal.Hand.opsDot (F := Ideal)) (afterPrefix m' c)
abbrev afterMiddle : RV := after (Cert.ReferenceIdeal.Hand.opsB (F := Ideal)) (afterDot m' c)

/-- A buffer none of the 108 operations writes ends as launched. -/
theorem kept_all (W : RV) (r : Ref Cert.ReferenceIdeal.sig .tc) (hA : r ∉ Cert.ReferenceIdeal.Hand.writesA) (hD : r ∉ Cert.ReferenceIdeal.Hand.writesDot)
    (hB : r ∉ Cert.ReferenceIdeal.Hand.writesB) (hC : r ∉ Cert.ReferenceIdeal.Hand.writesC) :
    after (Cert.ReferenceIdeal.Hand.ops (F := Ideal)) W (Proc.devRef .tc r) = W (Proc.devRef .tc r) := by
  rw [Cert.ReferenceIdeal.Hand.after_ops]
  exact (after_of_writes_sub _ _ Cert.ReferenceIdeal.Hand.opsC_writes hC).trans ((after_of_writes_sub _ _ Cert.ReferenceIdeal.Hand.opsB_writes hB).trans
    ((after_of_writes_sub _ _ Cert.ReferenceIdeal.Hand.opsDot_writes hD).trans (after_of_writes_sub _ _ Cert.ReferenceIdeal.Hand.opsA_writes hA)))

/-- A buffer the first fifty-seven operations do not write holds, before the tail, its launch contents. -/
theorem kept_middle (r : Ref Cert.ReferenceIdeal.sig .tc) (hA : r ∉ Cert.ReferenceIdeal.Hand.writesA) (hD : r ∉ Cert.ReferenceIdeal.Hand.writesDot)
    (hB : r ∉ Cert.ReferenceIdeal.Hand.writesB) :
    afterMiddle m' c (Proc.devRef .tc r) = m' ((c.tc : Thread Cert.ReferenceIdeal.nD Cert.ReferenceIdeal.τ).loc r) :=
  (after_of_writes_sub _ _ Cert.ReferenceIdeal.Hand.opsB_writes hB).trans ((after_of_writes_sub _ _ Cert.ReferenceIdeal.Hand.opsDot_writes hD).trans
    (after_of_writes_sub _ _ Cert.ReferenceIdeal.Hand.opsA_writes hA))

theorem kept_prefix (r : Ref Cert.ReferenceIdeal.sig .tc) (hA : r ∉ Cert.ReferenceIdeal.Hand.writesA) :
    afterPrefix m' c (Proc.devRef .tc r) = m' ((c.tc : Thread Cert.ReferenceIdeal.nD Cert.ReferenceIdeal.τ).loc r) :=
  after_of_writes_sub _ _ Cert.ReferenceIdeal.Hand.opsA_writes hA

end Ref

/-! ## The value equation -/

section Value

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

open Cert.KernelIdeal.Gen in
/-- From memories that agree on the ten arguments, the kernel program's last boundary holds at the result buffer what
    the reference's 108 operations leave at theirs. -/
theorem value_eq
    (hag : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))) :
    Cert.KernelIdeal.Gen.W7 m ρ c (Proc.devRef .tc Cert.KernelIdeal.main_v51)
      = after (Cert.ReferenceIdeal.Hand.ops (F := Ideal)) (launchContents m' c) (Proc.devRef .tc Cert.ReferenceIdeal.main_v89) := by
  obtain ⟨g0, g1, g2, g3, g4, g5, g6, g7, g8, g9⟩ := hag
  -- sources, destinations and normalisation weights: the same operations of the same edge list
  have e1 : W0 m ρ c (Proc.devRef .tc Cert.KernelIdeal.main_arg1) = atLaunch m' c (Proc.devRef .tc Cert.ReferenceIdeal.main_arg1) := g1.symm
  have h3 : W4 m ρ c (Proc.devRef .tc Cert.KernelIdeal.main_v3) = afterDot m' c (Proc.devRef .tc Cert.ReferenceIdeal.main_v3) :=
    (W4_of_ne m ρ c Cert.KernelIdeal.main_v3 (by decide)).trans ((Cert.Agree.prefix_main_v3 (W0 m ρ c) (atLaunch m' c) e1).trans
      (after_of_writes_sub _ _ Cert.ReferenceIdeal.Hand.opsDot_writes (by decide)).symm)
  have h6 : W4 m ρ c (Proc.devRef .tc Cert.KernelIdeal.main_v6) = afterDot m' c (Proc.devRef .tc Cert.ReferenceIdeal.main_v6) :=
    (W4_of_ne m ρ c Cert.KernelIdeal.main_v6 (by decide)).trans ((Cert.Agree.prefix_main_v6 (W0 m ρ c) (atLaunch m' c) e1).trans
      (after_of_writes_sub _ _ Cert.ReferenceIdeal.Hand.opsDot_writes (by decide)).symm)
  have h29 : W4 m ρ c (Proc.devRef .tc Cert.KernelIdeal.main_v29) = afterDot m' c (Proc.devRef .tc Cert.ReferenceIdeal.main_v29) :=
    (W4_of_ne m ρ c Cert.KernelIdeal.main_v29 (by decide)).trans ((Cert.Agree.prefix_main_v29 (W0 m ρ c) (atLaunch m' c) e1).trans
      (after_of_writes_sub _ _ Cert.ReferenceIdeal.Hand.opsDot_writes (by decide)).symm)
  -- the projected features: the first kernel's whole product is the reference's `dot_general`
  have h30 : W4 m ρ c (Proc.devRef .tc Cert.KernelIdeal.main_v30) = afterDot m' c (Proc.devRef .tc Cert.ReferenceIdeal.main_v30) := by
    refine (Cert.KernelIdeal.Hand.product_read m ρ c).trans (funext fun i => ?_)
    refine Eq.trans ?_ (Cert.ReferenceIdeal.Hand.dot_apply (afterPrefix m' c) i).symm
    rw [kept_prefix m' c Cert.ReferenceIdeal.main_arg0 (by decide), kept_prefix m' c Cert.ReferenceIdeal.main_arg2 (by decide), g0, g2]
  -- the aggregated features
  have hmid : W5 m ρ c (Proc.devRef .tc Cert.KernelIdeal.main_v43) = afterMiddle m' c (Proc.devRef .tc Cert.ReferenceIdeal.main_v43) :=
    Cert.Agree.middle (W4 m ρ c) (afterDot m' c) h3 h6 h29 h30
  funext i
  obtain ⟨p, rfl⟩ : ∃ p : Fin 100000, i = ix1 p := ⟨i 0, eq_ix1 i⟩
  rw [Cert.ReferenceIdeal.Hand.after_ops]
  refine (Cert.KernelIdeal.Hand.result_read m ρ c p).trans (Eq.trans ?_ (Cert.ReferenceIdeal.Hand.tail_apply (afterMiddle m' c) p).symm)
  rw [hmid, kept_middle m' c Cert.ReferenceIdeal.main_arg3 (by decide) (by decide) (by decide),
    kept_middle m' c Cert.ReferenceIdeal.main_arg4 (by decide) (by decide) (by decide),
    kept_middle m' c Cert.ReferenceIdeal.main_arg6 (by decide) (by decide) (by decide),
    kept_middle m' c Cert.ReferenceIdeal.main_arg7 (by decide) (by decide) (by decide),
    kept_middle m' c Cert.ReferenceIdeal.main_arg8 (by decide) (by decide) (by decide),
    kept_middle m' c Cert.ReferenceIdeal.main_arg9 (by decide) (by decide) (by decide), g3, g4, g6, g7, g8, g9]

end Value

end Cert.Bridge

end
-- ==== Proof.lean ====
/-
  The claim: the Pallas implementation of a one-layer graph convolution followed by a single GRU step and a linear head
  computes, over the extended reals, the array its plain reference computes.

  Both programs build the same normalised adjacency from the edge list on the host (self-loops added, degrees by a
  scatter-add of ones, symmetric normalisation by reciprocal square roots) and both gather, scale and scatter-add the
  projected node features along the edges on the host. They differ in where the dense stages run. The projection
  x · W is one `dot_general` in the reference and, in the kernel program, a kernel over 20 row blocks: a row of a product
  depends on that row of the left factor alone, so the blocks assemble the whole product (Region0). The GRU step from
  the zero state and the head are some fifty host operations in the reference and, in the kernel program, one kernel
  over 25 row blocks whose body is row-wise (Region1, HeadBlock); the reference spells the logistic function as
  1 / (1 + exp(−x)), which is what the kernel's operation denotes. Every sum, product, logistic and tanh meets the same
  operands in the same arrangement on the two sides (Spec), so no algebraic law of the extended reals is needed and
  the precondition that the inputs be finite is never opened.

  The frames of the two kernel programs are the generated ones. The reference's run is read off its list of
  operations (RefRun); its result is read a stretch at a time (Agree, RefTail) and met with the kernel program's
  segment boundaries (KernelRun, KernelHost) in Bridge. Nothing was rewritten when the idealized kernel was printed, so
  that conjunct is trivial.
-/
import proofs.«138187_j3959959847414_2_alg».proof.Defs
import proofs.«138187_j3959959847414_2_alg».proof.Proof.Gen.Kernel
import proofs.«138187_j3959959847414_2_alg».proof.Proof.Gen.Kernel.Skeleton
import proofs.«138187_j3959959847414_2_alg».proof.Proof.Gen.Kernel.Launch
import proofs.«138187_j3959959847414_2_alg».proof.Proof.Gen.Kernel.Points
import proofs.«138187_j3959959847414_2_alg».proof.Proof.Gen.Kernel.Frame
import proofs.«138187_j3959959847414_2_alg».proof.Proof.Gen.KernelIdeal
import proofs.«138187_j3959959847414_2_alg».proof.Proof.Gen.KernelIdeal.Skeleton
import proofs.«138187_j3959959847414_2_alg».proof.Proof.Gen.KernelIdeal.Launch
import proofs.«138187_j3959959847414_2_alg».proof.Proof.Gen.KernelIdeal.Points
import proofs.«138187_j3959959847414_2_alg».proof.Proof.Gen.KernelIdeal.Frame
import proofs.«138187_j3959959847414_2_alg».proof.Proof.Gen.ReferenceIdeal
import proofs.«138187_j3959959847414_2_alg».proof.Proof.Gen.Pre_finite_inputs
import proofs.«138187_j3959959847414_2_alg».proof.Proof.KernelRun
import proofs.«138187_j3959959847414_2_alg».proof.Proof.RefRun
import proofs.«138187_j3959959847414_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

/-- The reference runs and leaves its arguments as launched: none of its operations writes one. -/
theorem frame_ref : Cert.frame_ReferenceIdeal := fun m ρ _ =>
  (θ_run Cert.ReferenceIdeal.defs _ _).mono (fun _ h c =>
    ⟨(h c Cert.ReferenceIdeal.main_arg0).trans (Cert.Bridge.kept_all _ Cert.ReferenceIdeal.main_arg0 (by decide) (by decide) (by decide) (by decide)),
     (h c Cert.ReferenceIdeal.main_arg1).trans (Cert.Bridge.kept_all _ Cert.ReferenceIdeal.main_arg1 (by decide) (by decide) (by decide) (by decide)),
     (h c Cert.ReferenceIdeal.main_arg2).trans (Cert.Bridge.kept_all _ Cert.ReferenceIdeal.main_arg2 (by decide) (by decide) (by decide) (by decide)),
     (h c Cert.ReferenceIdeal.main_arg3).trans (Cert.Bridge.kept_all _ Cert.ReferenceIdeal.main_arg3 (by decide) (by decide) (by decide) (by decide)),
     (h c Cert.ReferenceIdeal.main_arg4).trans (Cert.Bridge.kept_all _ Cert.ReferenceIdeal.main_arg4 (by decide) (by decide) (by decide) (by decide)),
     (h c Cert.ReferenceIdeal.main_arg5).trans (Cert.Bridge.kept_all _ Cert.ReferenceIdeal.main_arg5 (by decide) (by decide) (by decide) (by decide)),
     (h c Cert.ReferenceIdeal.main_arg6).trans (Cert.Bridge.kept_all _ Cert.ReferenceIdeal.main_arg6 (by decide) (by decide) (by decide) (by decide)),
     (h c Cert.ReferenceIdeal.main_arg7).trans (Cert.Bridge.kept_all _ Cert.ReferenceIdeal.main_arg7 (by decide) (by decide) (by decide) (by decide)),
     (h c Cert.ReferenceIdeal.main_arg8).trans (Cert.Bridge.kept_all _ Cert.ReferenceIdeal.main_arg8 (by decide) (by decide) (by decide) (by decide)),
     (h c Cert.ReferenceIdeal.main_arg9).trans (Cert.Bridge.kept_all _ Cert.ReferenceIdeal.main_arg9 (by decide) (by decide) (by decide) (by decide))⟩)
    (Cert.ReferenceIdeal.Hand.run_raw (F := Ideal) m ρ)

/-- From memories agreeing on the arguments both idealized programs run and end with one result array: what the
    reference's operations leave at its result buffer. -/
theorem algebraic : Cert.algebraic_KernelIdeal_ReferenceIdeal := by
  intro m ρ m' ρ' _ hagree
  refine ⟨fun c => after (Cert.ReferenceIdeal.Hand.ops (F := Ideal)) (launchContents m' c) (Proc.devRef .tc Cert.ReferenceIdeal.main_v89), ?_, ?_⟩
  · exact (θ_run Cert.KernelIdeal.defs _ _).mono
      (fun _ h c => ⟨(h c).1.trans (Cert.Bridge.value_eq m ρ m' c (hagree c)), (h c).2⟩)
      (Cert.KernelIdeal.Hand.run_named (F := Ideal) m ρ)
  · exact (θ_run Cert.ReferenceIdeal.defs _ _).mono (fun _ h c =>
      ⟨h c Cert.ReferenceIdeal.main_v89,
       (h c Cert.ReferenceIdeal.main_arg0).trans (Cert.Bridge.kept_all _ Cert.ReferenceIdeal.main_arg0 (by decide) (by decide) (by decide) (by decide)),
       (h c Cert.ReferenceIdeal.main_arg1).trans (Cert.Bridge.kept_all _ Cert.ReferenceIdeal.main_arg1 (by decide) (by decide) (by decide) (by decide)),
       (h c Cert.ReferenceIdeal.main_arg2).trans (Cert.Bridge.kept_all _ Cert.ReferenceIdeal.main_arg2 (by decide) (by decide) (by decide) (by decide)),
       (h c Cert.ReferenceIdeal.main_arg3).trans (Cert.Bridge.kept_all _ Cert.ReferenceIdeal.main_arg3 (by decide) (by decide) (by decide) (by decide)),
       (h c Cert.ReferenceIdeal.main_arg4).trans (Cert.Bridge.kept_all _ Cert.ReferenceIdeal.main_arg4 (by decide) (by decide) (by decide) (by decide)),
       (h c Cert.ReferenceIdeal.main_arg5).trans (Cert.Bridge.kept_all _ Cert.ReferenceIdeal.main_arg5 (by decide) (by decide) (by decide) (by decide)),
       (h c Cert.ReferenceIdeal.main_arg6).trans (Cert.Bridge.kept_all _ Cert.ReferenceIdeal.main_arg6 (by decide) (by decide) (by decide) (by decide)),
       (h c Cert.ReferenceIdeal.main_arg7).trans (Cert.Bridge.kept_all _ Cert.ReferenceIdeal.main_arg7 (by decide) (by decide) (by decide) (by decide)),
       (h c Cert.ReferenceIdeal.main_arg8).trans (Cert.Bridge.kept_all _ Cert.ReferenceIdeal.main_arg8 (by decide) (by decide) (by decide) (by decide)),
       (h c Cert.ReferenceIdeal.main_arg9).trans (Cert.Bridge.kept_all _ Cert.ReferenceIdeal.main_arg9 (by decide) (by decide) (by decide) (by decide))⟩)
      (Cert.ReferenceIdeal.Hand.run_raw (F := Ideal) m' ρ')

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, frame_ref, trivial, algebraic⟩

end Cert.Proof

end
